-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x400000 : Shape := ⟨2, ![2, 400000]⟩
abbrev S50000 : Shape := ⟨1, ![50000]⟩
abbrev S32x256 : Shape := ⟨2, ![32, 256]⟩
abbrev S256 : Shape := ⟨1, ![256]⟩
abbrev S256x256 : Shape := ⟨2, ![256, 256]⟩
abbrev S256x12 : Shape := ⟨2, ![256, 12]⟩
abbrev S12 : Shape := ⟨1, ![12]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x12 : S_.BroadcastsInDim S256x12 (![] : Fin 0 → Fin S256x12.rank)
  reducesTo_S256x12_S_d0_1 : S256x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg6 : FVec F S256 .f32) (main_arg7 : FVec F S256x12 .f32) (main_arg8 : FVec F S12 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x12 .f32 := Host.absf main_arg7
  let main_cst_8 : FVec F S_ .f32 := constant S_ .f32 0x7F800000#32
  let main_v25 : FVec F S256x12 .f32 := broadcastInDim S256x12 ![] bcast_S_S256x12 main_cst_8
  let main_v26 : IVec S256x12 1 := cmpf .olt main_v24 main_v25
  let main_c_9 : IVec S_ 1 := constantI S_ 1 1#1
  let main_v27 : IVec S_ 1 := (fun x v => Host.reduce IntOp.andi x v reducesTo_S256x12_S_d0_1 h_S_) main_v26 main_c_9
  let main_v28 : IVec S_ 1 := andi main_v23 main_v27
  let main_v29 : FVec F S12 .f32 := Host.absf main_arg8
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  main_v33

def fn {F : FTy → Type} [FloatOps F] (main_arg0 : FVec F S50000x32 .f32) (main_arg1 : IVec S2x400000 32) (main_arg2 : IVec S50000 32) (main_arg3 : FVec F S32x256 .f32) (main_arg4 : FVec F S256 .f32) (main_arg5 : FVec F S256x256 .f32) (main_arg6 : FVec F S256 .f32) (main_arg7 : FVec F S256x12 .f32) (main_arg8 : FVec F S12 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x256 .f32 := Host.absf main_arg3
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x32 : Shape := ⟨2, ![50000, 32]⟩
abbrev S2x400000 : Shape := ⟨2, ![2, 400000]⟩
abbrev S50000 : Shape := ⟨1, ![50000]⟩
abbrev S32x256 : Shape := ⟨2, ![32, 256]⟩
abbrev S256 : Shape := ⟨1, ![256]⟩
abbrev S256x256 : Shape := ⟨2, ![256, 256]⟩
abbrev S256x12 : Shape := ⟨2, ![256, 12]⟩
abbrev S12 : Shape := ⟨1, ![12]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x1 : Shape := ⟨2, ![50000, 1]⟩
abbrev S1x256 : Shape := ⟨2, ![1, 256]⟩
abbrev S50000x256 : Shape := ⟨2, ![50000, 256]⟩
abbrev S2000x32 : Shape := ⟨2, ![2000, 32]⟩
abbrev S2000x1 : Shape := ⟨2, ![2000, 1]⟩
abbrev S2000x256 : Shape := ⟨2, ![2000, 256]⟩
abbrev S450000x256 : Shape := ⟨2, ![450000, 256]⟩
abbrev S64x256 : Shape := ⟨2, ![64, 256]⟩
abbrev S64 : Shape := ⟨1, ![64]⟩
abbrev S64x1 : Shape := ⟨2, ![64, 1]⟩
abbrev S1x12 : Shape := ⟨2, ![1, 12]⟩
abbrev S64x6 : Shape := ⟨2, ![64, 6]⟩
abbrev S64x12 : Shape := ⟨2, ![64, 12]⟩

abbrev nBuf : Space → Nat
  | .hbm => 69
  | .vmem => 28
  | .smem => 0
  | _ => 0

abbrev bufTy : (tb : Table) → Fin (tcTables nBuf tb) → BufTy
  | .hbm, ⟨0, _⟩ => ⟨S50000x32, .f32⟩
  | .hbm, ⟨1, _⟩ => ⟨S2x400000, .i32⟩
  | .hbm, ⟨2, _⟩ => ⟨S50000, .i32⟩
  | .hbm, ⟨3, _⟩ => ⟨S32x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x12, .f32⟩
  | .hbm, ⟨8, _⟩ => ⟨S12, .f32⟩
  | .hbm, ⟨9, _⟩ => ⟨S50000, .i32⟩
  | .hbm, ⟨10, _⟩ => ⟨S1x400000, .i32⟩
  | .hbm, ⟨11, _⟩ => ⟨S400000, .i32⟩
  | .hbm, ⟨12, _⟩ => ⟨S450000, .i32⟩
  | .hbm, ⟨13, _⟩ => ⟨S1x400000, .i32⟩
  | .hbm, ⟨14, _⟩ => ⟨S400000, .i32⟩
  | .hbm, ⟨15, _⟩ => ⟨S450000, .i32⟩
  | .hbm, ⟨16, _⟩ => ⟨S_, .f32⟩
  | .hbm, ⟨17, _⟩ => ⟨S450000, .f32⟩
  | .hbm, ⟨18, _⟩ => ⟨S_, .f32⟩
  | .hbm, ⟨19, _⟩ => ⟨S50000, .f32⟩
  | .hbm, ⟨20, _⟩ => ⟨S450000x1, .i32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S1x256, .f32⟩
  | .hbm, ⟨25, _⟩ => ⟨S1x256, .f32⟩
  | .hbm, ⟨26, _⟩ => ⟨S50000x256, .f32⟩
  | .hbm, ⟨27, _⟩ => ⟨S_, .i32⟩
  | .hbm, ⟨28, _⟩ => ⟨S450000, .i32⟩
  | .hbm, ⟨29, _⟩ => ⟨S450000, .i1⟩
  | .hbm, ⟨30, _⟩ => ⟨S_, .i32⟩
  | .hbm, ⟨31, _⟩ => ⟨S450000, .i32⟩
  | .hbm, ⟨32, _⟩ => ⟨S450000, .i32⟩
  | .hbm, ⟨33, _⟩ => ⟨S450000, .i32⟩
  | .hbm, ⟨34, _⟩ => ⟨S450000x1, .i32⟩
  | .hbm, ⟨35, _⟩ => ⟨S450000x256, .f32⟩
  | .hbm, ⟨36, _⟩ => ⟨S_, .f32⟩
  | .hbm, ⟨37, _⟩ => ⟨S50000x256, .f32⟩
  | .hbm, ⟨38, _⟩ => ⟨S450000x1, .i32⟩
  | .hbm, ⟨39, _⟩ => ⟨S50000x256, .f32⟩
  | .hbm, ⟨40, _⟩ => ⟨S50000x256, .f32⟩
  | .hbm, ⟨41, _⟩ => ⟨S_, .i32⟩
  | .hbm, ⟨42, _⟩ => ⟨S450000, .i32⟩
  | .hbm, ⟨43, _⟩ => ⟨S450000, .i1⟩
  | .hbm, ⟨44, _⟩ => ⟨S_, .i32⟩
  | .hbm, ⟨45, _⟩ => ⟨S450000, .i32⟩
  | .hbm, ⟨46, _⟩ => ⟨S450000, .i32⟩
  | .hbm, ⟨47, _⟩ => ⟨S450000, .i32⟩
  | .hbm, ⟨48, _⟩ => ⟨S450000x1, .i32⟩
  | .hbm, ⟨49, _⟩ => ⟨S450000x256, .f32⟩
  | .hbm, ⟨50, _⟩ => ⟨S_, .f32⟩
  | .hbm, ⟨51, _⟩ => ⟨S50000x256, .f32⟩
  | .hbm, ⟨52, _⟩ => ⟨S450000x1, .i32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S64x256, .f32⟩
  | .hbm, ⟨57, _⟩ => ⟨S50000x1, .i32⟩
  | .hbm, ⟨58, _⟩ => ⟨S64x256, .f32⟩
  | .hbm, ⟨59, _⟩ => ⟨S_, .f32⟩
  | .hbm, ⟨60, _⟩ => ⟨S50000, .f32⟩
  | .hbm, ⟨61, _⟩ => ⟨S_, .f32⟩
  | .hbm, ⟨62, _⟩ => ⟨S64, .f32⟩
  | .hbm, ⟨63, _⟩ => ⟨S50000x1, .i32⟩
  | .hbm, ⟨64, _⟩ => ⟨S64, .f32⟩
  | .hbm, ⟨65, _⟩ => ⟨S64x1, .f32⟩
  | .hbm, ⟨66, _⟩ => ⟨S1x12, .f32⟩
  | .hbm, ⟨67, _⟩ => ⟨S64x6, .f32⟩
  | .hbm, ⟨68, _⟩ => ⟨S64x6, .f32⟩
  | .local _ .vmem, ⟨0, _⟩ => ⟨S2000x32, .f32⟩
  | .local _ .vmem, ⟨1, _⟩ => ⟨S2000x32, .f32⟩
  | .local _ .vmem, ⟨2, _⟩ => ⟨S32x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S64x256, .f32⟩
  | .local _ .vmem, ⟨23, _⟩ => ⟨S64x1, .f32⟩
  | .local _ .vmem, ⟨24, _⟩ => ⟨S256x12, .f32⟩
  | .local _ .vmem, ⟨25, _⟩ => ⟨S1x12, .f32⟩
  | .local _ .vmem, ⟨26, _⟩ => ⟨S64x6, .f32⟩
  | .local _ .vmem, ⟨27, _⟩ => ⟨S64x6, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x12 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x12 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x6 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x6 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  shapeCasts_S50000_S50000x1 : S50000.ShapeCasts S50000x1
  shapeCasts_S256_S1x256 : S256.ShapeCasts S1x256
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  shapeCasts_S64_S64x1 : S64.ShapeCasts S64x1
  shapeCasts_S12_S1x12 : S12.ShapeCasts S1x12
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x256 : S64x1.Broadcasts S64x256
  inb_S256x12_S256x12_0_0 : ∀ a, (![0, 0] : Fin 2 → Nat) a + S256x12.size a ≤ S256x12.size a
  h_S256x12 : 0 < S256x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S64x12 : S1x12.Broadcasts S64x12
  slices_S64x12_o0_0_S64x6 : S64x12.Slices ![0, 0] S64x6
  slices_S64x12_o0_6_S64x6 : S64x12.Slices ![0, 6] S64x6
  inb_S64x6_S64x6_0_0 : ∀ a, (![0, 0] : Fin 2 → Nat) a + S64x6.size a ≤ S64x6.size a
  h_S64x6 : 0 < S64x6.numel
  scatter_S50000_S450000x1_S450000_n_0_0_1_wf : ScatterDims.WF S50000 S450000x1 S450000 [] [0] [0] 1
  dot_S2000x32_S32x256_S2000x256_1_0_0_1_n_n_wf : DotDims.WF S2000x32 S32x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S2000x256_S256x256_S2000x256_1_0_0_1_n_n_wf : DotDims.WF S2000x256 S256x256 S2000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x12_S64x12_1_0_0_1_n_n_wf : DotDims.WF S64x256 S256x12 S64x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x256.size a ≤ S64x256.size a
  hwx3_0 : ∀ i : grid3.Coords, EltTy.bits .f32 = 32 ∨ (Rect.block (s := S64x256) S64x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x12.size a ≤ S256x12.size a
  hwx3_2 : ∀ i : grid3.Coords, EltTy.bits .f32 = 32 ∨ (Rect.block (s := S256x12) S256x12.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x12.size a ≤ S1x12.size a
  hwx3_3 : ∀ i : grid3.Coords, EltTy.bits .f32 = 32 ∨ (Rect.block (s := S1x12) S1x12.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x6.size a ≤ S64x6.size a
  hwx3_4 : ∀ i : grid3.Coords, EltTy.bits .f32 = 32 ∨ (Rect.block (s := S64x6) S64x6.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x6.size a ≤ S64x6.size a
  hwx3_5 : ∀ i : grid3.Coords, EltTy.bits .f32 = 32 ∨ (Rect.block (s := S64x6) S64x6.size (cc3_transform_5 i) (hinb3_5 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x12_S64x12_1_0_0_1_n_n : DotDims S64x256 S256x12 S64x12 where
  lhsContracting := [1]
  rhsContracting := [0]
  lhsNonContracting := [0]
  rhsNonContracting := [1]
  lhsBatch := []
  rhsBatch := []
  wf := dot_S64x256_S256x12_S64x12_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S64x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v45) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S256x12.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x12.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47_0) S64x6.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47_1) S64x6.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x32 : Shape := ⟨2, ![50000, 32]⟩
abbrev S2x400000 : Shape := ⟨2, ![2, 400000]⟩
abbrev S50000 : Shape := ⟨1, ![50000]⟩
abbrev S32x256 : Shape := ⟨2, ![32, 256]⟩
abbrev S256 : Shape := ⟨1, ![256]⟩
abbrev S256x256 : Shape := ⟨2, ![256, 256]⟩
abbrev S256x12 : Shape := ⟨2, ![256, 12]⟩
abbrev S12 : Shape := ⟨1, ![12]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x256 : Shape := ⟨2, ![50000, 256]⟩
abbrev S450000x256 : Shape := ⟨2, ![450000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x12 : Shape := ⟨2, ![64, 12]⟩
abbrev S1x12 : Shape := ⟨2, ![1, 12]⟩
abbrev S64x6 : Shape := ⟨2, ![64, 6]⟩

abbrev nBuf : Space → Nat
  | .hbm => 138
  | .vmem => 0
  | .smem => 0
  | _ => 0

abbrev hbmTy0_0 (i : Nat) : BufTy := match i % 128 with
  | 0 => ⟨S50000x32, .f32⟩
  | 1 => ⟨S2x400000, .i32⟩
  | 2 => ⟨S50000, .i32⟩
  | 3 => ⟨S32x256, .f32⟩
  | 4 => ⟨S256, .f32⟩
  | 5 => ⟨S256x256, .f32⟩
  | 6 => ⟨S256, .f32⟩
  | 7 => ⟨S256x12, .f32⟩
  | 8 => ⟨S12, .f32⟩
  | 9 => ⟨S50000, .i32⟩
  | 10 => ⟨S1x400000, .i32⟩
  | 11 => ⟨S400000, .i32⟩
  | 12 => ⟨S450000, .i32⟩
  | 13 => ⟨S1x400000, .i32⟩
  | 14 => ⟨S400000, .i32⟩
  | 15 => ⟨S450000, .i32⟩
  | 16 => ⟨S_, .f32⟩
  | 17 => ⟨S450000, .f32⟩
  | 18 => ⟨S_, .f32⟩
  | 19 => ⟨S50000, .f32⟩
  | 20 => ⟨S450000x1, .i32⟩
  | 21 => ⟨S50000, .f32⟩
  | 22 => ⟨S50000, .f32⟩
  | 23 => ⟨S50000x256, .f32⟩
  | 24 => ⟨S_, .i32⟩
  | 25 => ⟨S450000, .i32⟩
  | 26 => ⟨S450000, .i1⟩
  | 27 => ⟨S_, .i32⟩
  | 28 => ⟨S450000, .i32⟩
  | 29 => ⟨S450000, .i32⟩
  | 30 => ⟨S450000, .i32⟩
  | 31 => ⟨S450000x1, .i32⟩
  | 32 => ⟨S450000, .f32⟩
  | 33 => ⟨S_, .i32⟩
  | 34 => ⟨S450000, .i32⟩
  | 35 => ⟨S450000, .i1⟩
  | 36 => ⟨S_, .i32⟩
  | 37 => ⟨S450000, .i32⟩
  | 38 => ⟨S450000, .i32⟩
  | 39 => ⟨S450000, .i32⟩
  | 40 => ⟨S450000x1, .i32⟩
  | 41 => ⟨S450000, .f32⟩
  | 42 => ⟨S450000, .f32⟩
  | 43 => ⟨S_, .i32⟩
  | 44 => ⟨S450000, .i32⟩
  | 45 => ⟨S450000, .i1⟩
  | 46 => ⟨S_, .i32⟩
  | 47 => ⟨S450000, .i32⟩
  | 48 => ⟨S450000, .i32⟩
  | 49 => ⟨S450000, .i32⟩
  | 50 => ⟨S450000x1, .i32⟩
  | 51 => ⟨S450000x256, .f32⟩
  | 52 => ⟨S450000x1, .f32⟩
  | 53 => ⟨S450000x256, .f32⟩
  | 54 => ⟨S450000x256, .f32⟩
  | 55 => ⟨S_, .f32⟩
  | 56 => ⟨S50000x256, .f32⟩
  | 57 => ⟨S450000x1, .i32⟩
  | 58 => ⟨S50000x256, .f32⟩
  | 59 => ⟨S1x256, .f32⟩
  | 60 => ⟨S50000x256, .f32⟩
  | 61 => ⟨S50000x256, .f32⟩
  | 62 => ⟨S_, .f32⟩
  | 63 => ⟨S50000x256, .f32⟩
  | 64 => ⟨S50000x256, .f32⟩
  | 65 => ⟨S50000x256, .f32⟩
  | 66 => ⟨S_, .i32⟩
  | 67 => ⟨S450000, .i32⟩
  | 68 => ⟨S450000, .i1⟩
  | 69 => ⟨S_, .i32⟩
  | 70 => ⟨S450000, .i32⟩
  | 71 => ⟨S450000, .i32⟩
  | 72 => ⟨S450000, .i32⟩
  | 73 => ⟨S450000x1, .i32⟩
  | 74 => ⟨S450000, .f32⟩
  | 75 => ⟨S_, .i32⟩
  | 76 => ⟨S450000, .i32⟩
  | 77 => ⟨S450000, .i1⟩
  | 78 => ⟨S_, .i32⟩
  | 79 => ⟨S450000, .i32⟩
  | 80 => ⟨S450000, .i32⟩
  | 81 => ⟨S450000, .i32⟩
  | 82 => ⟨S450000x1, .i32⟩
  | 83 => ⟨S450000, .f32⟩
  | 84 => ⟨S450000, .f32⟩
  | 85 => ⟨S_, .i32⟩
  | 86 => ⟨S450000, .i32⟩
  | 87 => ⟨S450000, .i1⟩
  | 88 => ⟨S_, .i32⟩
  | 89 => ⟨S450000, .i32⟩
  | 90 => ⟨S450000, .i32⟩
  | 91 => ⟨S450000, .i32⟩
  | 92 => ⟨S450000x1, .i32⟩
  | 93 => ⟨S450000x256, .f32⟩
  | 94 => ⟨S450000x1, .f32⟩
  | 95 => ⟨S450000x256, .f32⟩
  | 96 => ⟨S450000x256, .f32⟩
  | 97 => ⟨S_, .f32⟩
  | 98 => ⟨S50000x256, .f32⟩
  | 99 => ⟨S450000x1, .i32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S_, .f32⟩
  | 108 => ⟨S64x256, .f32⟩
  | 109 => ⟨S50000x1, .i32⟩
  | 110 => ⟨S64x256, .f32⟩
  | 111 => ⟨S_, .f32⟩
  | 112 => ⟨S50000, .f32⟩
  | 113 => ⟨S_, .f32⟩
  | 114 => ⟨S64, .f32⟩
  | 115 => ⟨S50000x1, .i32⟩
  | 116 => ⟨S64, .f32⟩
  | 117 => ⟨S_, .f32⟩
  | 118 => ⟨S64, .f32⟩
  | 119 => ⟨S64, .f32⟩
  | 120 => ⟨S64x1, .f32⟩
  | 121 => ⟨S64x256, .f32⟩
  | 122 => ⟨S64x256, .f32⟩
  | 123 => ⟨S64x12, .f32⟩
  | 124 => ⟨S1x12, .f32⟩
  | 125 => ⟨S64x12, .f32⟩
  | 126 => ⟨S64x12, .f32⟩
  | 127 => ⟨S64x6, .f32⟩
  | _ => ⟨S50000x32, .f32⟩

abbrev hbmTy0_1 (i : Nat) : BufTy := match i % 128 with
  | 0 => ⟨S64x6, .f32⟩
  | 1 => ⟨S_, .f32⟩
  | 2 => ⟨S_, .f32⟩
  | 3 => ⟨S_, .f32⟩
  | 4 => ⟨S64x6, .f32⟩
  | 5 => ⟨S64x6, .f32⟩
  | 6 => ⟨S_, .f32⟩
  | 7 => ⟨S64x6, .f32⟩
  | 8 => ⟨S64x6, .f32⟩
  | 9 => ⟨S64x6, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_cst : Ref sig .tc := ⟨.hbm, 104, rfl⟩
abbrev main_call1_v0 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_18 : Ref sig .tc := ⟨.hbm, 129, rfl⟩
abbrev main_cst_19 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v96 : Ref sig .tc := ⟨.hbm, 136, rfl⟩
abbrev main_v97 : Ref sig .tc := ⟨.hbm, 137, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S12_S1x12_1 : S12.BroadcastsInDim S1x12 (![1] : Fin 1 → Fin S1x12.rank)
  bcast_S1x12_S64x12_0_1 : S1x12.BroadcastsInDim S64x12 (![0, 1] : Fin 2 → Fin S64x12.rank)
  slices_S64x12_S64x6_0_0 : S64x12.Slices ![0, 0] S64x6
  slices_S64x12_S64x6_0_6 : S64x12.Slices ![0, 6] S64x6
  bcast_S_S64x6 : S_.BroadcastsInDim S64x6 (![] : Fin 0 → Fin S64x6.rank)
  scatter_S50000_S450000x1_S450000_n_0_0_1_wf : ScatterDims.WF S50000 S450000x1 S450000 [] [0] [0] 1
  dot_S50000x32_S32x256_S50000x256_1_0_0_1_n_n_wf : DotDims.WF S50000x32 S32x256 S50000x256 [1] [0] [0] [1] [] []
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x12_S64x12_1_0_0_1_n_n_wf : DotDims.WF S64x256 S256x12 S64x12 [1] [0] [0] [1] [] []

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S50000x32_S32x256_S50000x256_1_0_0_1_n_n : DotDims S50000x32 S32x256 S50000x256 where
  lhsContracting := [1]
  rhsContracting := [0]
  lhsNonContracting := [0]
  rhsNonContracting := [1]
  lhsBatch := []
  rhsBatch := []
  wf := dot_S50000x32_S32x256_S50000x256_1_0_0_1_n_n_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x12_S64x12_1_0_0_1_n_n : DotDims S64x256 S256x12 S64x12 where
  lhsContracting := [1]
  rhsContracting := [0]
  lhsNonContracting := [0]
  rhsNonContracting := [1]
  lhsBatch := []
  rhsBatch := []
  wf := dot_S64x256_S256x12_S64x12_1_0_0_1_n_n_wf

class Facts : Prop extends Facts₀ where

variable [Facts]
-- ==== Proof.KRun.lean ====
/-
  The idealized kernel program's run with every result named.

  The program is four kernel regions among stretches of host operations. Its run from any launch memory
  terminates, and every buffer that outlives the kernels ends at the contents the boundary fold `W8` gives it:
  each stretch of host operations applied to the contents before it, each region's arrays at what its
  write-backs leave. The value of each result is then read off `W8`.
-/
import proofs.«180153_j7301444403652_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last thread state says of a final memory: every buffer no kernel scopes holds the fold's last
    contents. -/
def Ends (c : Dev nD) (s : MemSt nD τ sig (Elt F)) : Prop :=
  ∀ b ∈ Pipeline.ucRefs τ sig, s.mem (((c : Thread nD τ)).1, b) = W8 m ρ c b

/-- The thread state a core starts from: the unscoped buffers at the launch contents, the generator register,
    nothing owed. -/
abbrev Start (c : Dev nD) : sProp 𝕄 :=
  iprop(StableHlo.held (c : Thread nD τ) (Pipeline.ucRefs τ sig) (W0 m ρ c) ∗ R c)

/-- The ghost state every pipeline's staging cells start from is the launch element itself; no core needs
    anything more. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  rw [BI.bigSep_emp_const]
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  refine hown.trans ?_
  iintro Hown
  imodintro
  isplitl [Hown]
  · iexact Hown
  · iempintro

/-- What the launch deals a core is its starting thread state. -/
theorem first_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ (Start (F := F) m ρ) := by
  refine Pipeline.initEach L lv fun c => ?_
  rw [Pipeline.unscopedBufs_held c (W0 m ρ c)]
  iintro ⟨⟨Hbufs, -, Howes, -, Hreg, -⟩, -⟩
  imodintro
  isplitl [Hbufs]
  · iexact Hbufs
  · isplitl [Hreg]
    · iexists _; iexact Hreg
    · iexists ∅; iexact Howes

/-- The last thread state holds every unscoped buffer at the fold's last contents, so a final memory has them
    there. -/
theorem read_last (c : Dev nD) (s' : Phys nD τ sig (Elt F)) :
    iprop(Tₙ m ρ c ∗ SI s') ⊢ |={Set.univ}=> iprop(⌜Ends m ρ c s'.mem⌝ ∗ SI s') := by
  iintro ⟨⟨Hheld, -⟩, Hsi⟩
  unfold StableHlo.held
  imodintro
  iapply (pointsTo_read_all (Pipeline.ucRefs τ sig) (fun b => (((c : Thread nD τ)).1, b)) (W8 m ρ c) s')
  isplitl [Hheld] <;> iassumption

set_option backward.isDefEq.respectTransparency.types false in
/-- Every weakly fair execution of the program terminates, nothing faulting, and leaves every buffer that no
    kernel scopes at the fold's last contents: the segments of the program, each from what the one before it
    left, launched from the starting thread state and read at the last. -/
theorem run_all : θ_run defs (onTc (τ := τ) (main (F := F))) ⟨m, fun _ => 0, ρ⟩ (fun r => ∀ c : Dev nD, Ends m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := Start m ρ) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := first_state m ρ)
    (QY := Ends m ρ)
    (hfin := read_last m ρ)
    (hQ := fun s h => h)

/-- The run read at one buffer of the TensorCore that no kernel scopes. -/
theorem ends_at (b : Ref sig .tc) (hb : ¬ (Proc.devRef .tc b : DevRef τ sig).isScoped) (c : Dev nD) (s : MemSt nD τ sig (Elt F))
    (h : Ends m ρ c s) : s.mem ((c : Thread nD τ).loc b) = W8 m ρ c (Proc.devRef .tc b) :=
  h _ (mem_uc b hb)

end Cert.KernelIdeal.KRun

end
-- ==== Proof.Stages.lean ====
/-
  The stages of the graph network as functions of the argument arrays: the edge lists with their self loops,
  the start-index columns, the degrees and their inverse square roots, the accumulation of gathered rows at
  the destinations, the pooling by graph.
-/
import proofs.«180153_j7301444403652_2_alg».proof.Proof.Gen.KernelIdeal
import Idealize.ShloMosaic.PureOps.Ideal

noncomputable section

namespace Cert.KernelIdeal.KValue

open Cert.KernelIdeal Cert.KernelIdeal.Facts₀ Cert.KernelIdeal.Facts Idealize.ShloMosaic

/-! ## The stages, as functions of the argument arrays -/

/-- Edge sources: row 0 of the edge list, then one self loop per node. -/
def src (a1 : (⟨S2x400000, .i32⟩ : BufTy).Contents (Elt Ideal)) : (⟨S450000, .i32⟩ : BufTy).Contents (Elt Ideal) :=
  concatenate S450000 0 [⟨S400000, shapeCast S400000 (extractStridedSlice S1x400000 ![0, 0] a1 slices_S2x400000_S1x400000_0_0) shapeCasts_S1x400000_S400000⟩,
    ⟨S50000, iotaInDim S50000 32 0⟩] concatenates_S400000_S50000_S450000_d0

/-- Edge destinations: row 1 of the edge list, then one self loop per node. -/
def dst (a1 : (⟨S2x400000, .i32⟩ : BufTy).Contents (Elt Ideal)) : (⟨S450000, .i32⟩ : BufTy).Contents (Elt Ideal) :=
  concatenate S450000 0 [⟨S400000, shapeCast S400000 (extractStridedSlice S1x400000 ![1, 0] a1 slices_S2x400000_S1x400000_1_0) shapeCasts_S1x400000_S400000⟩,
    ⟨S50000, iotaInDim S50000 32 0⟩] concatenates_S400000_S50000_S450000_d0

/-- The destinations as a column of start indices. -/
def dcol (a1 : (⟨S2x400000, .i32⟩ : BufTy).Contents (Elt Ideal)) : (⟨S450000x1, .i32⟩ : BufTy).Contents (Elt Ideal) :=
  broadcastInDim S450000x1 ![0] bcast_S450000_S450000x1_0 (dst a1)

/-- The sources, negative words wrapped by the table's length, as a column of start indices. -/
def scol (a1 : (⟨S2x400000, .i32⟩ : BufTy).Contents (Elt Ideal)) : (⟨S450000x1, .i32⟩ : BufTy).Contents (Elt Ideal) :=
  broadcastInDim S450000x1 ![0] bcast_S450000_S450000x1_0
    (select (cmpi .slt (src a1) (broadcastInDim S450000 ![] bcast_S_S450000 (constantI S_ 32 0#32)))
      (addi (src a1) (broadcastInDim S450000 ![] bcast_S_S450000 (constantI S_ 32 50000#32))) (src a1))

/-- The destinations, negative words wrapped by the table's length, as a column of start indices. -/
def dwcol (a1 : (⟨S2x400000, .i32⟩ : BufTy).Contents (Elt Ideal)) : (⟨S450000x1, .i32⟩ : BufTy).Contents (Elt Ideal) :=
  broadcastInDim S450000x1 ![0] bcast_S450000_S450000x1_0
    (select (cmpi .slt (dst a1) (broadcastInDim S450000 ![] bcast_S_S450000 (constantI S_ 32 0#32)))
      (addi (dst a1) (broadcastInDim S450000 ![] bcast_S_S450000 (constantI S_ 32 50000#32))) (dst a1))

/-- The degree of every node: the number of edges that land on it. -/
def deg (a1 : (⟨S2x400000, .i32⟩ : BufTy).Contents (Elt Ideal)) : (⟨S50000, .f32⟩ : BufTy).Contents (Elt Ideal) :=
  Host.scatterAdd (F := Ideal) scatter_S50000_S450000x1_S450000_n_0_0_1
    (broadcastInDim S50000 ![] bcast_S_S50000 (constant S_ .f32 0x00000000#32)) (dcol a1)
    (broadcastInDim S450000 ![] bcast_S_S450000 (constant S_ .f32 0x3F800000#32))

/-- The inverse square root of the degree. -/
def dis (a1 : (⟨S2x400000, .i32⟩ : BufTy).Contents (Elt Ideal)) : (⟨S50000, .f32⟩ : BufTy).Contents (Elt Ideal) :=
  Host.rsqrt (F := Ideal) (φ := .f32) (deg a1)

/-- The same as a column. -/
def D (a1 : (⟨S2x400000, .i32⟩ : BufTy).Contents (Elt Ideal)) : (⟨S50000x1, .f32⟩ : BufTy).Contents (Elt Ideal) :=
  shapeCast S50000x1 (dis a1) shapeCasts_S50000_S50000x1

/-- A bias vector as a row. -/
def brow (b : (⟨S256, .f32⟩ : BufTy).Contents (Elt Ideal)) : (⟨S1x256, .f32⟩ : BufTy).Contents (Elt Ideal) :=
  shapeCast S1x256 b shapeCasts_S256_S1x256

/-- Rows of a table gathered along the sources and accumulated at the destinations. -/
def agg (a1 : (⟨S2x400000, .i32⟩ : BufTy).Contents (Elt Ideal)) (T : (⟨S50000x256, .f32⟩ : BufTy).Contents (Elt Ideal)) :
    (⟨S50000x256, .f32⟩ : BufTy).Contents (Elt Ideal) :=
  Host.scatterAdd (F := Ideal) scatter_S50000x256_S450000x1_S450000x256_1_0_0_1
    (broadcastInDim S50000x256 ![] bcast_S_S50000x256 (constant S_ .f32 0x00000000#32)) (dcol a1)
    (Host.gather gather_S50000x256_S450000x1_S450000x256_1_0_n_n_0_1_1256 T (scol a1))

/-- The graph ids as a column of start indices. -/
def bcol (a2 : (⟨S50000, .i32⟩ : BufTy).Contents (Elt Ideal)) : (⟨S50000x1, .i32⟩ : BufTy).Contents (Elt Ideal) :=
  broadcastInDim S50000x1 ![0] bcast_S50000_S50000x1_0 a2

/-- Rows of a table accumulated by graph. -/
def pool (a2 : (⟨S50000, .i32⟩ : BufTy).Contents (Elt Ideal)) (T : (⟨S50000x256, .f32⟩ : BufTy).Contents (Elt Ideal)) :
    (⟨S64x256, .f32⟩ : BufTy).Contents (Elt Ideal) :=
  Host.scatterAdd (F := Ideal) scatter_S64x256_S50000x1_S50000x256_1_0_0_1
    (broadcastInDim S64x256 ![] bcast_S_S64x256 (constant S_ .f32 0x00000000#32)) (bcol a2) T

/-- The number of nodes of every graph, as a column. -/
def ccol (a2 : (⟨S50000, .i32⟩ : BufTy).Contents (Elt Ideal)) : (⟨S64x1, .f32⟩ : BufTy).Contents (Elt Ideal) :=
  shapeCast S64x1 (Host.scatterAdd (F := Ideal) scatter_S64_S50000x1_S50000_n_0_0_1
    (broadcastInDim S64 ![] bcast_S_S64 (constant S_ .f32 0x00000000#32)) (bcol a2)
    (broadcastInDim S50000 ![] bcast_S_S50000 (constant S_ .f32 0x3F800000#32))) shapeCasts_S64_S64x1

/-- The last bias as a row. -/
def frow (b : (⟨S12, .f32⟩ : BufTy).Contents (Elt Ideal)) : (⟨S1x12, .f32⟩ : BufTy).Contents (Elt Ideal) :=
  shapeCast S1x12 b shapeCasts_S12_S1x12

end Cert.KernelIdeal.KValue

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.LibNormSum.lean ====
/-
  Scaling a finite sum on the extended reals.

  Multiplication on the extended reals does not distribute over addition in general (`⊤ + ⊥`), but it does
  when the factor is a nonnegative real. Hence a sum accumulated at a destination and then scaled by the
  destination's factor is the sum of the terms each scaled by the factor of its own destination.
-/
import Idealize.ShloMosaic.PureOps.Ideal

noncomputable section

open scoped BigOperators

namespace Cert.NormSum

open Idealize.ShloMosaic

/-- A nonnegative real factor distributes over a finite sum of extended reals. -/
theorem mul_sum_of_nonneg_real {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Scaling the accumulated sum by `a(n)` is accumulating terms scaled by `a` at their own destination,
    when every term that lands on `n` has destination factor `a(n)`. -/
theorem normalized_sum_eq {M : Nat} (an : EReal) (h0 : 0 ≤ an) (ht : an ≠ ⊤) (hit : Fin M → Prop)
    [DecidablePred hit] (h ws wd : Fin M → EReal) (hd : ∀ e, hit e → wd e = an) :
    an * (0 + ∑ e : Fin M, if hit e then h e * ws e else 0)
      = 0 + ∑ e : Fin M, if hit e then h e * (ws e * wd e) else 0 := by
  rw [zero_add, zero_add, mul_sum_of_nonneg_real an h0 ht]
  refine Finset.sum_congr rfl fun e _ => ?_
  by_cases he : hit e
  · rw [if_pos he, if_pos he, hd e he, mul_comm an, mul_assoc]
  · rw [if_neg he, if_neg he, mul_zero]

/-- A finite count, accumulated on the extended reals, is a nonnegative real. -/
theorem count_finset_nonneg_real {ι : Type*} (s : Finset ι) (p : ι → Prop) [DecidablePred p] :
    ∃ r : ℝ, 0 ≤ r ∧ (∑ e ∈ s, if p e then (1 : EReal) else 0) = (r : EReal) := by
  induction s using Finset.cons_induction with
  | empty => exact ⟨0, le_rfl, by simp⟩
  | cons i s hi ih =>
    obtain ⟨r, hr0, hr⟩ := ih
    rw [Finset.sum_cons, hr]
    by_cases hp : p i
    · refine ⟨1 + r, by linarith, ?_⟩
      rw [if_pos hp, EReal.coe_add, EReal.coe_one]
    · refine ⟨r, hr0, ?_⟩
      rw [if_neg hp, zero_add]

/-- The number of indices satisfying `p`, accumulated from zero, is a nonnegative real. -/
theorem count_nonneg_real {M : Nat} (p : Fin M → Prop) [DecidablePred p] :
    ∃ r : ℝ, 0 ≤ r ∧ (0 + ∑ e : Fin M, if p e then (1 : EReal) else 0) = (r : EReal) := by
  rw [zero_add]
  exact count_finset_nonneg_real Finset.univ p

/-- The guarded inverse square root of a nonnegative real is a nonnegative real: zero at zero (the guard
    selects the constant), `1 / √r` at a positive `r`. -/
theorem guarded_rsqrt_nonneg_real (r : ℝ) (hr : 0 ≤ r) :
    ∃ r' : ℝ, 0 ≤ r' ∧
      Scalar.select (Ideal.cmp .ogt (r : EReal) 0) (Ideal.rsqrt (r : EReal)) (0 : EReal) = (r' : EReal) := by
  rcases hr.eq_or_lt with h | h
  · subst h
    refine ⟨0, le_rfl, ?_⟩
    have h0 : Ideal.cmp .ogt ((0 : ℝ) : EReal) 0 ≠ 1 := by
      show BitVec.ofBool (decide ((0 : EReal) < ((0 : ℝ) : EReal))) ≠ 1
      rw [EReal.coe_zero, decide_eq_false (lt_irrefl _)]
      decide
    unfold Scalar.select
    rw [if_neg h0, EReal.coe_zero]
  · refine ⟨(Real.sqrt r)⁻¹, inv_nonneg.2 (Real.sqrt_nonneg r), ?_⟩
    have h1 : Ideal.cmp .ogt (r : EReal) 0 = 1 := by
      show BitVec.ofBool (decide ((0 : EReal) < (r : EReal))) = 1
      rw [decide_eq_true (EReal.coe_pos.2 h)]
      rfl
    unfold Scalar.select
    rw [if_pos h1, Ideal.rsqrt_coe, if_neg (not_lt.2 hr), if_neg h.ne']

end Cert.NormSum

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.Gcn.lean ====
/-
  One graph-convolution layer, two ways.

  A table H of N rows is gathered along the source of every edge, weighted, and accumulated at the edge's
  destination. The weight of edge e is dis(src e) · dis(dst e), dis the inverse square root of the degree.
  Because dis(dst e) is the same number dis(n) for every edge that lands on n, the weighted sum at n is
  dis(n) times the sum of the rows H(src e) · dis(src e): the rows can be scaled by dis BEFORE the gather and
  the accumulated rows scaled by dis AFTER the scatter. On the extended reals this needs dis(n) to be a
  nonnegative real, so that it distributes over the sum; the degree counts at least the self loop, so it is.
-/
import Idealize.ShloMosaic.PureOps.Ideal
import Idealize.ShloMosaic.Lib.ValueIdx
import Idealize.ShloMosaic.Lib.Pipeline.Value
import proofs.«180153_j7301444403652_2_alg».proof.Proof.LibRows
import proofs.«180153_j7301444403652_2_alg».proof.Proof.LibRows1
import proofs.«180153_j7301444403652_2_alg».proof.Proof.LibNormSum
import proofs.«180153_j7301444403652_2_alg».proof.Proof.LibRowDot
import proofs.«180153_j7301444403652_2_alg».proof.Proof.LibRowBias

noncomputable section

open scoped BigOperators

namespace Cert.Gcn

open Idealize.ShloMosaic Idealize.ShloMosaic.ValueIdx

variable {N C M : Nat}

/-- Every row p of A times the p-th entry of the column D. -/
def scaleRows (A : (⟨2, ![N, C]⟩ : Shape).Idx → EReal) (D : (⟨2, ![N, 1]⟩ : Shape).Idx → EReal) :
    (⟨2, ![N, C]⟩ : Shape).Idx → EReal := fun i => A i * D (ix2 (i 0) (0 : Fin 1))

/-- The matrix product X · W, entry by entry. -/
def mm {K : Nat} (X : (⟨2, ![N, K]⟩ : Shape).Idx → EReal) (W : (⟨2, ![K, C]⟩ : Shape).Idx → EReal) :
    (⟨2, ![N, C]⟩ : Shape).Idx → EReal := fun i => Cert.RowDot.rowDot (Cert.RowDot.rowOf X (i 0)) W (i 1)

/-- A length-a vector placed along the rows of an a×1 column reads, at (e, u), the vector at e. -/
theorem colInDim_apply {α : Type} {a : Nat} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply ![0] h x (ix2 e u) (ix1 e) (fun ax => match ax with
    | ⟨0, _⟩ => by
        show e.val = if a = 1 then 0 else e.val
        split
        · have := e.isLt; omega
        · rfl)

/-- An a×1 column spread over b columns reads, at (e, j), the column at (e, 0). -/
theorem spreadColInDim_apply {α : Type} {a b : Nat} (v : (⟨2, ![a, 1]⟩ : Shape).Idx → α)
    (h : (⟨2, ![a, 1]⟩ : Shape).BroadcastsInDim ⟨2, ![a, b]⟩ ![0, 1]) (e : Fin a) (j : Fin b) :
    broadcastInDim ⟨2, ![a, b]⟩ ![0, 1] h v (ix2 e j) = v (ix2 e (0 : Fin 1)) :=
  broadcastInDim_apply ![0, 1] h v (ix2 e j) (ix2 e (0 : Fin 1)) (fun ax => match ax with
    | ⟨0, _⟩ => by
        show e.val = if a = 1 then 0 else e.val
        split
        · have := e.isLt; omega
        · rfl
    | ⟨1, _⟩ => by show (0 : Nat) = if (1 : Nat) = 1 then 0 else _; rw [if_pos rfl])

/-- The row a start word names: the word read signed, clamped into [0, N − 1]. -/
def rowAt (hN : 0 < N) (col : IVec ⟨2, ![M, 1]⟩ 32) (e : Fin M) : Fin N :=
  ⟨min (col (ix2 e (0 : Fin 1))).toInt.toNat (N - 1), by omega⟩

/-- THE LAYER IDENTITY. Rows scaled by dis, gathered along the sources, accumulated at the destinations and
    scaled by dis again are the rows gathered, weighted per edge by dis(src) · dis(dst), and accumulated —
    when dis is a nonnegative real everywhere and the clamped destination of an edge that lands on n is n. -/
theorem layer_eq (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (wfg1 : GatherDims.WF ⟨1, ![N]⟩ ⟨2, ![M, 1]⟩ ⟨1, ![M]⟩ [] [0] [] [0] [] 1 ![1])
    (hb1 : (⟨1, ![M]⟩ : Shape).BroadcastsInDim ⟨2, ![M, 1]⟩ ![0])
    (hb2 : (⟨2, ![M, 1]⟩ : Shape).BroadcastsInDim ⟨2, ![M, C]⟩ ![0, 1])
    (H zero : (⟨2, ![N, C]⟩ : Shape).Idx → EReal) (dis : (⟨1, ![N]⟩ : Shape).Idx → EReal)
    (D : (⟨2, ![N, 1]⟩ : Shape).Idx → EReal) (scol dwcol dcol : IVec ⟨2, ![M, 1]⟩ 32)
    (hz : ∀ i, zero i = 0)
    (hD : ∀ n : Fin N, D (ix2 n (0 : Fin 1)) = dis (ix1 n))
    (hdis : ∀ n : Fin N, 0 ≤ dis (ix1 n) ∧ dis (ix1 n) ≠ ⊤)
    (hwrap : ∀ (e : Fin M) (n : Fin N), (dcol (ix2 e (0 : Fin 1))).toInt = (n.val : ℤ) → rowAt hN dwcol e = n) :
    scaleRows (Ideal.hostScatterAdd (Cert.Rows.scatter2 N C M wfs) zero dcol
        (Host.gather (Cert.Rows.gather2 N C M wfg) (scaleRows H D) scol)) D
      = Ideal.hostScatterAdd (Cert.Rows.scatter2 N C M wfs) zero dcol
          (mulf (F := Ideal) (φ := .f32) (Host.gather (Cert.Rows.gather2 N C M wfg) H scol)
            (broadcastInDim ⟨2, ![M, C]⟩ ![0, 1] hb2 (broadcastInDim ⟨2, ![M, 1]⟩ ![0] hb1
              (mulf (F := Ideal) (φ := .f32) (Host.gather (Cert.Rows1.gather1 N M wfg1) dis scol)
                (Host.gather (Cert.Rows1.gather1 N M wfg1) dis dwcol))))) := by
  funext i
  obtain ⟨n, j, rfl⟩ : ∃ (n : Fin N) (j : Fin C), i = ix2 n j := ⟨i 0, i 1, eq_ix2 i⟩
  have hL : ∀ e : Fin M, Host.gather (Cert.Rows.gather2 N C M wfg) (scaleRows H D) scol (ix2 e j)
      = H (ix2 (rowAt hN scol e) j) * dis (ix1 (rowAt hN scol e)) := by
    intro e
    rw [Cert.Rows.gather2_apply hN]
    exact congrArg (H (ix2 (rowAt hN scol e) j) * ·) (hD (rowAt hN scol e))
  have hR : ∀ e : Fin M, mulf (F := Ideal) (φ := .f32) (Host.gather (Cert.Rows.gather2 N C M wfg) H scol)
        (broadcastInDim ⟨2, ![M, C]⟩ ![0, 1] hb2 (broadcastInDim ⟨2, ![M, 1]⟩ ![0] hb1
          (mulf (F := Ideal) (φ := .f32) (Host.gather (Cert.Rows1.gather1 N M wfg1) dis scol)
            (Host.gather (Cert.Rows1.gather1 N M wfg1) dis dwcol)))) (ix2 e j)
      = H (ix2 (rowAt hN scol e) j) * (dis (ix1 (rowAt hN scol e)) * dis (ix1 (rowAt hN dwcol e))) := by
    intro e
    show Host.gather (Cert.Rows.gather2 N C M wfg) H scol (ix2 e j)
      * broadcastInDim ⟨2, ![M, C]⟩ ![0, 1] hb2 (broadcastInDim ⟨2, ![M, 1]⟩ ![0] hb1
          (mulf (F := Ideal) (φ := .f32) (Host.gather (Cert.Rows1.gather1 N M wfg1) dis scol)
            (Host.gather (Cert.Rows1.gather1 N M wfg1) dis dwcol))) (ix2 e j) = _
    rw [spreadColInDim_apply, colInDim_apply, Cert.Rows.gather2_apply hN]
    show _ * (Host.gather (Cert.Rows1.gather1 N M wfg1) dis scol (ix1 e)
      * Host.gather (Cert.Rows1.gather1 N M wfg1) dis dwcol (ix1 e)) = _
    rw [Cert.Rows1.gather1_apply hN, Cert.Rows1.gather1_apply hN]
    rfl
  show Ideal.hostScatterAdd (Cert.Rows.scatter2 N C M wfs) zero dcol
      (Host.gather (Cert.Rows.gather2 N C M wfg) (scaleRows H D) scol) (ix2 n j) * D (ix2 n (0 : Fin 1)) = _
  rw [Cert.Rows.scatterAdd2_apply, Cert.Rows.scatterAdd2_apply, hz, hD n]
  simp only [hL, hR]
  rw [mul_comm]
  exact Cert.NormSum.normalized_sum_eq (dis (ix1 n)) (hdis n).1 (hdis n).2
    (fun e : Fin M => (dcol (ix2 e (0 : Fin 1))).toInt = (n.val : ℤ))
    (fun e => H (ix2 (rowAt hN scol e) j)) (fun e => dis (ix1 (rowAt hN scol e)))
    (fun e => dis (ix1 (rowAt hN dwcol e))) (fun e he => by rw [hwrap e n he])

end Cert.Gcn

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Region0.lean ====
/-
  The first kernel: rows of X · W1, each scaled by its node's factor.

  Grid point t handles rows 2000·t … 2000·t + 1999: it reads that block of X, all of W1 and that block of the
  factor column, and writes the block of (X · W1) scaled row by row. The 25 blocks tile the 50000 rows, so the
  array the kernel leaves is one function of the arrays it finds: entry (n, j) is (Σ_k X(n,k) · W1(k,j)) · D(n,0).
-/
import proofs.«180153_j7301444403652_2_alg».proof.Proof.Gen.KernelIdeal.Frame
import proofs.«180153_j7301444403652_2_alg».proof.Proof.Gcn
import proofs.«180153_j7301444403652_2_alg».proof.Proof.LibColumn
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Gcn
open Idealize.ShloMosaic Idealize.ShloMosaic.ValueIdx Idealize.ShloMosaic.TcCoe Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- What the kernel leaves, as one function of the arrays it finds. -/
def G (X : S50000x32.Idx → EReal) (W : S32x256.Idx → EReal) (D : S50000x1.Idx → EReal) : S50000x256.Idx → EReal :=
  scaleRows (mm X W) D

/-- The body's arithmetic at an entry of the block: the row of the X-block times W, times the row's factor. -/
theorem pay_apply (x0 : Vec Ideal S2000x32 .f32) (x1 : Vec Ideal S32x256 .f32) (x2 : Vec Ideal S2000x1 .f32)
    (p : Fin 2000) (q : Fin 256) :
    k0_pay1 x0 x1 x2 (ix2 p q)
      = Cert.RowDot.rowDot (Cert.RowDot.rowOf x0 p) x1 q * x2 (ix2 p (0 : Fin 1)) := by
  unfold k0_pay1
  show (matmul (F := Ideal) dot_S2000x32_S32x256_S2000x256_1_0_0_1_n_n none (truncf .bf16 (x0 : FVec Ideal S2000x32 .f32) bitsLt_bf16_f32)
      (truncf .bf16 (x1 : FVec Ideal S32x256 .f32) bitsLt_bf16_f32) (constant S2000x256 .f32 0x00000000#32) (ix2 p q) : EReal)
    * broadcastTo S2000x256 (shapeCast S2000x1 (x2 : FVec Ideal S2000x1 .f32) shapeCasts_S2000x1_S2000x1) broadcasts_S2000x1_S2000x256 (ix2 p q) = _
  rw [shapeCast_self, Cert.Column.broadcastTo_a1_ab_apply]
  refine congrArg (· * x2 (ix2 p (0 : Fin 1))) ?_
  exact Cert.RowDot.matmul_plain_zero_apply none _ _ (ix2 p q)

/-- The printed index maps over the grid: the X-block, the factor block and the output block move together along
    the rows; W1 stays; no block moves along the columns. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every block of rows is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- What point t writes back is block t of G of the arrays the region finds. -/
theorem flushed_eq (c : Dev nD) (t : Fin cfg0.N) :
    (dat0 V c).flushed 3 t = ((cfg0.win 3).blk t).view.read (Elt Ideal) (G (V c main_arg0) (V c main_arg3) (V c main_v12)) := by
  show (cfg0.win 3).cut (grid0.coords t) ((dat0 V c).after 3 t) = _
  rw [after0_3]
  unfold out0_3
  rw [View.canon_unit_zero origin]
  simp only [View.ld_unit_zero (S := S2000x32) origin, View.ld_unit_zero (S := S32x256) origin, View.ld_unit_zero (S := S2000x1) origin]
  obtain ⟨e0, e1, e2, e3, e4, e5, e6, e7⟩ := idx_facts t
  funext y
  obtain ⟨p, q, rfl⟩ : ∃ (p : Fin 2000) (q : Fin 256), y = ix2 p q := ⟨y 0, y 1, eq_ix2 y⟩
  show k0_pay1 (iblk0 V c 0 t) (iblk0 V c 1 t) (iblk0 V c 2 t) (ix2 p q)
    = G (V c main_arg0) (V c main_arg3) (V c main_v12) (((cfg0.win 3).blk t).view.emb (ix2 p q))
  refine (pay_apply (iblk0 V c 0 t) (iblk0 V c 1 t) (iblk0 V c 2 t) p q).trans ?_
  unfold G scaleRows mm Cert.RowDot.rowDot Cert.RowDot.rowOf
  have hx : ∀ k : Fin 32, ((cfg0.win 0).blk t).view.emb (ix2 p k)
      = ix2 ((((cfg0.win 3).blk t).view.emb (ix2 p q)) 0) k := by
    intro k; funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 32 + 1 * k.val = k.val; omega
  have hw : ∀ k : Fin 32, ((cfg0.win 1).blk t).view.emb (ix2 k q)
      = ix2 k ((((cfg0.win 3).blk t).view.emb (ix2 p q)) 1) := by
    intro k; funext a; apply Fin.ext
    match a with
    | ⟨0, _⟩ => show win0_1.index t (0 : Fin 2) * 32 + 1 * k.val = k.val; omega
    | ⟨1, _⟩ => show win0_1.index t (1 : Fin 2) * 256 + 1 * q.val = win0_3.index t (1 : Fin 2) * 256 + 1 * q.val; omega
  have hd : ((cfg0.win 2).blk t).view.emb (ix2 p (0 : Fin 1))
      = ix2 ((((cfg0.win 3).blk t).view.emb (ix2 p q)) 0) (0 : Fin 1) := by
    funext a; apply Fin.ext
    match a with
    | ⟨0, _⟩ => show win0_2.index t (0 : Fin 2) * 2000 + 1 * p.val = win0_3.index t (0 : Fin 2) * 2000 + 1 * p.val; omega
    | ⟨1, _⟩ => show win0_2.index t (1 : Fin 2) * 1 + 1 * 0 = 0; omega
  have hx' : ∀ k : Fin 32, iblk0 V c 0 t (ix2 p k)
      = V c main_arg0 (ix2 ((((cfg0.win 3).blk t).view.emb (ix2 p q)) 0) k) := fun k => congrArg (V c main_arg0) (hx k)
  have hw' : ∀ k : Fin 32, iblk0 V c 1 t (ix2 k q)
      = V c main_arg3 (ix2 k ((((cfg0.win 3).blk t).view.emb (ix2 p q)) 1)) := fun k => congrArg (V c main_arg3) (hw k)
  have hd' : iblk0 V c 2 t (ix2 p (0 : Fin 1))
      = V c main_v12 (ix2 ((((cfg0.win 3).blk t).view.emb (ix2 p q)) 0) (0 : Fin 1)) := congrArg (V c main_v12) hd
  simp only [hx', hw', hd']

/-- An index of the array is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v15).slice (win0_3.rect t)).set ↔ _
  rw [View.set_slice_whole, Rect.mem_set_unit]
  exact Iff.rfl

/-- The blocks cover the array: row r lies in block r / 2000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE ARRAY the first kernel leaves. -/
theorem final (c : Dev nD) :
    (dat0 V c).arrAt 3 cfg0.N = G (V c main_arg0) (V c main_arg3) (V c main_v12) :=
  (dat0 V c).arrAt_eq_of_cover 3 (G (V c main_arg0) (V c main_arg3) (V c main_v12)) (fun t _ => flushed_eq V c t) cover

end Cert.KernelIdeal.Region0

end
-- ==== Proof.Region2.lean ====
/-
  The third kernel: the accumulated rows scaled by their node's factor, plus the bias row, clamped below at 0.

  Grid point t handles rows 2000·t … 2000·t + 1999 of the accumulated table and of the factor column; the bias
  row is read whole. The 25 blocks tile the 50000 rows, so the array the kernel leaves is one function of the
  arrays it finds: entry (n, j) is max(A(n,j) · D(n,0) + B(0,j), 0).
-/
import proofs.«180153_j7301444403652_2_alg».proof.Proof.Gen.KernelIdeal.Frame
import proofs.«180153_j7301444403652_2_alg».proof.Proof.Gcn
import proofs.«180153_j7301444403652_2_alg».proof.Proof.LibColumn
import proofs.«180153_j7301444403652_2_alg».proof.Proof.LibRowBias
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Gcn
open Idealize.ShloMosaic Idealize.ShloMosaic.ValueIdx Idealize.ShloMosaic.TcCoe Idealize.SL.Sem

variable (V : (c : Dev nD) → (b : Ref sig .tc) → Buf (Elt Ideal) ((c : Thread nD τ).loc b))

theorem origin : (![0, 0] : Fin 2 → Nat) = fun _ => 0 := funext fun a => by fin_cases a <;> rfl

open Cert.RowBias

/-- What the kernel leaves, as one function of the arrays it finds. -/
def G (A : S50000x256.Idx → EReal) (D : S50000x1.Idx → EReal) (B : S1x256.Idx → EReal) : S50000x256.Idx → EReal :=
  clampBelow (Ideal.ofBits .f32 0x00000000#32) (addRow (scaleRows A D) B)

/-- The body's arithmetic at an entry of the block. -/
theorem pay_apply (x0 : Vec Ideal S2000x256 .f32) (x1 : Vec Ideal S2000x1 .f32) (x2 : Vec Ideal S1x256 .f32)
    (p : Fin 2000) (q : Fin 256) :
    k2_pay1 x0 x1 x2 (ix2 p q)
      = max (x0 (ix2 p q) * x1 (ix2 p (0 : Fin 1)) + x2 (ix2 0 q)) (Ideal.ofBits .f32 0x00000000#32) := by
  unfold k2_pay1
  show max ((shapeCast S2000x256 (x0 : FVec Ideal S2000x256 .f32) shapeCasts_S2000x256_S2000x256 (ix2 p q) : EReal)
      * broadcastTo S2000x256 (shapeCast S2000x1 (x1 : FVec Ideal S2000x1 .f32) shapeCasts_S2000x1_S2000x1) broadcasts_S2000x1_S2000x256 (ix2 p q)
      + broadcastTo S2000x256 (shapeCast S1x256 (x2 : FVec Ideal S1x256 .f32) shapeCasts_S1x256_S1x256) broadcasts_S1x256_S2000x256 (ix2 p q))
    (Ideal.ofBits .f32 0x00000000#32) = _
  rw [shapeCast_self, shapeCast_self, shapeCast_self, Cert.Column.broadcastTo_a1_ab_apply, Cert.RowBias.spreadRow_apply]

/-- The printed index maps over the grid: the table block, the factor block and the output block move together
    along the rows; the bias row stays; no block moves along the columns. -/
theorem idx_facts : ∀ t : Fin cfg2.N, win2_0.index t (0 : Fin 2) = win2_3.index t (0 : Fin 2)
    ∧ win2_0.index t (1 : Fin 2) = 0 ∧ win2_1.index t (0 : Fin 2) = win2_3.index t (0 : Fin 2)
    ∧ win2_1.index t (1 : Fin 2) = 0 ∧ win2_2.index t (0 : Fin 2) = 0 ∧ win2_2.index t (1 : Fin 2) = 0
    ∧ win2_3.index t (1 : Fin 2) = 0 ∧ win2_3.index t (0 : Fin 2) ≤ 24 :=
  (by decide +kernel : ∀ t : Fin grid2.N, _)

/-- Every block of rows is some point's. -/
theorem idx_onto : ∀ q0 : Fin 25, ∃ t : Fin cfg2.N, win2_3.index t = ![q0.val, 0] :=
  (by decide +kernel : ∀ q0 : Fin 25, ∃ t : Fin grid2.N, win2_3.index t = ![q0.val, 0])

/-- What point t writes back is block t of G of the arrays the region finds. -/
theorem flushed_eq (c : Dev nD) (t : Fin cfg2.N) :
    (dat2 V c).flushed 3 t = ((cfg2.win 3).blk t).view.read (Elt Ideal) (G (V c main_v36) (V c main_v12) (V c main_v14)) := by
  show (cfg2.win 3).cut (grid2.coords t) ((dat2 V c).after 3 t) = _
  rw [after2_3]
  unfold out2_3
  rw [View.canon_unit_zero origin]
  simp only [View.ld_unit_zero (S := S2000x256) origin, View.ld_unit_zero (S := S2000x1) origin, View.ld_unit_zero (S := S1x256) origin]
  obtain ⟨e0, e1, e2, e3, e4, e5, e6, e7⟩ := idx_facts t
  funext y
  obtain ⟨p, q, rfl⟩ : ∃ (p : Fin 2000) (q : Fin 256), y = ix2 p q := ⟨y 0, y 1, eq_ix2 y⟩
  show k2_pay1 (iblk2 V c 0 t) (iblk2 V c 1 t) (iblk2 V c 2 t) (ix2 p q)
    = G (V c main_v36) (V c main_v12) (V c main_v14) (((cfg2.win 3).blk t).view.emb (ix2 p q))
  refine (pay_apply (iblk2 V c 0 t) (iblk2 V c 1 t) (iblk2 V c 2 t) p q).trans ?_
  unfold G clampBelow addRow scaleRows
  have ha : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 256 + 1 * q.val = win2_3.index t (1 : Fin 2) * 256 + 1 * q.val; omega
  have hd : ((cfg2.win 1).blk t).view.emb (ix2 p (0 : Fin 1))
      = ix2 ((((cfg2.win 3).blk t).view.emb (ix2 p q)) 0) (0 : Fin 1) := by
    funext a; apply Fin.ext
    match a with
    | ⟨0, _⟩ => show win2_1.index t (0 : Fin 2) * 2000 + 1 * p.val = win2_3.index t (0 : Fin 2) * 2000 + 1 * p.val; omega
    | ⟨1, _⟩ => show win2_1.index t (1 : Fin 2) * 1 + 1 * 0 = 0; omega
  have hb : ((cfg2.win 2).blk t).view.emb (ix2 (0 : Fin 1) q)
      = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 256 + 1 * q.val = win2_3.index t (1 : Fin 2) * 256 + 1 * q.val; omega
  have ha' : iblk2 V c 0 t (ix2 p q) = V c main_v36 (((cfg2.win 3).blk t).view.emb (ix2 p q)) := congrArg (V c main_v36) ha
  have hd' : iblk2 V c 1 t (ix2 p (0 : Fin 1))
      = V c main_v12 (ix2 ((((cfg2.win 3).blk t).view.emb (ix2 p q)) 0) (0 : Fin 1)) := congrArg (V c main_v12) hd
  have hb' : iblk2 V c 2 t (ix2 (0 : Fin 1) q)
      = V c main_v14 (ix2 (0 : Fin 1) ((((cfg2.win 3).blk t).view.emb (ix2 p q)) 1)) := congrArg (V c main_v14) hb
  simp only [ha', hd', hb']

/-- An index of the array is in point t's block iff each coordinate is in the block's range on its axis. -/
theorem mem_blk (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v37).slice (win2_3.rect t)).set ↔ _
  rw [View.set_slice_whole, Rect.mem_set_unit]
  exact Iff.rfl

/-- The blocks cover the array: row r lies in block r / 2000. -/
theorem cover (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- THE ARRAY the third kernel leaves. -/
theorem final (c : Dev nD) :
    (dat2 V c).arrAt 3 cfg2.N = G (V c main_v36) (V c main_v12) (V c main_v14) :=
  (dat2 V c).arrAt_eq_of_cover 3 (G (V c main_v36) (V c main_v12) (V c main_v14)) (fun t _ => flushed_eq V c t) cover

end Cert.KernelIdeal.Region2

end
-- ==== Proof.Region1.lean ====
/-
  The second kernel: the first layer's output rows, times W2, each scaled by its node's factor.

  Grid point t handles rows 2000·t … 2000·t + 1999: the block of the accumulated table and of the factor column,
  the bias row and W2 whole. A row of the first layer's output is max(A(n,·) · D(n,0) + B(0,·), 0); the kernel
  multiplies it by W2 and scales the result by D(n,0) again. The 25 blocks tile the 50000 rows.
-/
import proofs.«180153_j7301444403652_2_alg».proof.Proof.Gen.KernelIdeal.Frame
import proofs.«180153_j7301444403652_2_alg».proof.Proof.Gcn
import proofs.«180153_j7301444403652_2_alg».proof.Proof.LibColumn
import proofs.«180153_j7301444403652_2_alg».proof.Proof.LibRowBias
import proofs.«180153_j7301444403652_2_alg».proof.Proof.Region2
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Gcn
open Idealize.ShloMosaic Idealize.ShloMosaic.ValueIdx Idealize.ShloMosaic.TcCoe Idealize.SL.Sem

variable (V : (c : Dev nD) → (b : Ref sig .tc) → Buf (Elt Ideal) ((c : Thread nD τ).loc b))

theorem origin : (![0, 0] : Fin 2 → Nat) = fun _ => 0 := funext fun a => by fin_cases a <;> rfl

open Cert.RowBias

/-- What the kernel leaves, as one function of the arrays it finds. -/
def G (A : S50000x256.Idx → EReal) (D : S50000x1.Idx → EReal) (B : S1x256.Idx → EReal) (W : S256x256.Idx → EReal) :
    S50000x256.Idx → EReal := scaleRows (mm (Region2.G A D B) W) D

/-- G at an entry. -/
theorem G_apply (A : S50000x256.Idx → EReal) (D : S50000x1.Idx → EReal) (B : S1x256.Idx → EReal) (W : S256x256.Idx → EReal)
    (n : Fin 50000) (j : Fin 256) :
    G A D B W (ix2 n j)
      = (∑ k : Fin 256, max (A (ix2 n k) * D (ix2 n (0 : Fin 1)) + B (ix2 0 k)) (Ideal.ofBits .f32 0x00000000#32) * W (ix2 k j))
        * D (ix2 n (0 : Fin 1)) := rfl

/-- The body's arithmetic at an entry of the block. -/
theorem pay_apply (x0 : Vec Ideal S2000x256 .f32) (x1 : Vec Ideal S2000x1 .f32) (x2 : Vec Ideal S1x256 .f32)
    (x3 : Vec Ideal S256x256 .f32) (x4 : Vec Ideal S2000x1 .f32) (p : Fin 2000) (q : Fin 256) :
    k1_pay1 x0 x1 x2 x3 x4 (ix2 p q)
      = (∑ k : Fin 256, max (x0 (ix2 p k) * x1 (ix2 p (0 : Fin 1)) + x2 (ix2 0 k)) (Ideal.ofBits .f32 0x00000000#32) * x3 (ix2 k q))
        * x4 (ix2 p (0 : Fin 1)) := by
  have hk : k1_pay1 x0 x1 x2 x3 x4 = mulf (F := Ideal) (φ := .f32)
      (matmul (F := Ideal) dot_S2000x256_S256x256_S2000x256_1_0_0_1_n_n none (truncf .bf16 (k2_pay1 x0 x1 x2) bitsLt_bf16_f32)
        (truncf .bf16 (x3 : FVec Ideal S256x256 .f32) bitsLt_bf16_f32) (constant S2000x256 .f32 0x00000000#32))
      (broadcastTo S2000x256 (shapeCast S2000x1 (x4 : FVec Ideal S2000x1 .f32) shapeCasts_S2000x1_S2000x1) broadcasts_S2000x1_S2000x256) := rfl
  rw [hk]
  show (matmul (F := Ideal) dot_S2000x256_S256x256_S2000x256_1_0_0_1_n_n none (truncf .bf16 (k2_pay1 x0 x1 x2) bitsLt_bf16_f32)
        (truncf .bf16 (x3 : FVec Ideal S256x256 .f32) bitsLt_bf16_f32) (constant S2000x256 .f32 0x00000000#32) (ix2 p q) : EReal)
      * broadcastTo S2000x256 (shapeCast S2000x1 (x4 : FVec Ideal S2000x1 .f32) shapeCasts_S2000x1_S2000x1) broadcasts_S2000x1_S2000x256 (ix2 p q) = _
  rw [shapeCast_self, Cert.Column.broadcastTo_a1_ab_apply]
  refine congrArg (· * x4 (ix2 p (0 : Fin 1))) ?_
  refine (Cert.RowDot.matmul_plain_zero_apply none _ _ (ix2 p q)).trans ?_
  unfold Cert.RowDot.rowDot Cert.RowDot.rowOf
  refine Finset.sum_congr rfl fun k _ => ?_
  exact congrArg (· * x3 (ix2 k q)) (Region2.pay_apply x0 x1 x2 p k)

/-- The printed index maps over the grid: the table block, the factor block and the output block move together
    along the rows; the bias row and W2 stay; no block moves along the columns. -/
theorem idx_facts : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every block of rows is some point's. -/
theorem idx_onto : ∀ q0 : Fin 25, ∃ t : Fin cfg1.N, win1_4.index t = ![q0.val, 0] :=
  (by decide +kernel : ∀ q0 : Fin 25, ∃ t : Fin grid1.N, win1_4.index t = ![q0.val, 0])

/-- What point t writes back is block t of G of the arrays the region finds. -/
theorem flushed_eq (c : Dev nD) (t : Fin cfg1.N) :
    (dat1 V c).flushed 4 t = ((cfg1.win 4).blk t).view.read (Elt Ideal)
      (G (V c main_v25) (V c main_v12) (V c main_v13) (V c main_arg5)) := by
  show (cfg1.win 4).cut (grid1.coords t) ((dat1 V c).after 4 t) = _
  rw [after1_4]
  unfold out1_4
  rw [View.canon_unit_zero origin]
  simp only [View.ld_unit_zero (S := S2000x256) origin, View.ld_unit_zero (S := S2000x1) origin, View.ld_unit_zero (S := S1x256) origin, View.ld_unit_zero (S := S256x256) origin]
  obtain ⟨e0, e1, e2, e3, e4, e5, e6, e7, e8, e9⟩ := idx_facts t
  funext y
  obtain ⟨p, q, rfl⟩ : ∃ (p : Fin 2000) (q : Fin 256), y = ix2 p q := ⟨y 0, y 1, eq_ix2 y⟩
  show k1_pay1 (iblk1 V c 0 t) (iblk1 V c 1 t) (iblk1 V c 2 t) (iblk1 V c 3 t) (iblk1 V c 1 t) (ix2 p q)
    = G (V c main_v25) (V c main_v12) (V c main_v13) (V c main_arg5) (((cfg1.win 4).blk t).view.emb (ix2 p q))
  refine (pay_apply (iblk1 V c 0 t) (iblk1 V c 1 t) (iblk1 V c 2 t) (iblk1 V c 3 t) (iblk1 V c 1 t) p q).trans ?_
  refine Eq.trans ?_ ((congrArg (G (V c main_v25) (V c main_v12) (V c main_v13) (V c main_arg5))
    (eq_ix2 (((cfg1.win 4).blk t).view.emb (ix2 p q)))).trans (G_apply _ _ _ _ _ _)).symm
  have ha : ∀ k : Fin 256, ((cfg1.win 0).blk t).view.emb (ix2 p k)
      = ix2 ((((cfg1.win 4).blk t).view.emb (ix2 p q)) 0) k := by
    intro k; funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 256 + 1 * k.val = k.val; omega
  have hd : ((cfg1.win 1).blk t).view.emb (ix2 p (0 : Fin 1))
      = ix2 ((((cfg1.win 4).blk t).view.emb (ix2 p q)) 0) (0 : Fin 1) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 1 + 1 * 0 = 0; omega
  have hb : ∀ k : Fin 256, ((cfg1.win 2).blk t).view.emb (ix2 (0 : Fin 1) k) = ix2 (0 : Fin 1) k := by
    intro k; funext a; apply Fin.ext
    match a with
    | ⟨0, _⟩ => show win1_2.index t (0 : Fin 2) * 1 + 1 * 0 = 0; omega
    | ⟨1, _⟩ => show win1_2.index t (1 : Fin 2) * 256 + 1 * k.val = k.val; omega
  have hw : ∀ k : Fin 256, ((cfg1.win 3).blk t).view.emb (ix2 k q)
      = ix2 k ((((cfg1.win 4).blk t).view.emb (ix2 p q)) 1) := by
    intro k; funext a; apply Fin.ext
    match a with
    | ⟨0, _⟩ => show win1_3.index t (0 : Fin 2) * 256 + 1 * k.val = k.val; omega
    | ⟨1, _⟩ => show win1_3.index t (1 : Fin 2) * 256 + 1 * q.val = win1_4.index t (1 : Fin 2) * 256 + 1 * q.val; omega
  have ha' : ∀ k : Fin 256, iblk1 V c 0 t (ix2 p k)
      = V c main_v25 (ix2 ((((cfg1.win 4).blk t).view.emb (ix2 p q)) 0) k) := fun k => congrArg (V c main_v25) (ha k)
  have hd' : iblk1 V c 1 t (ix2 p (0 : Fin 1))
      = V c main_v12 (ix2 ((((cfg1.win 4).blk t).view.emb (ix2 p q)) 0) (0 : Fin 1)) := congrArg (V c main_v12) hd
  have hb' : ∀ k : Fin 256, iblk1 V c 2 t (ix2 (0 : Fin 1) k) = V c main_v13 (ix2 (0 : Fin 1) k) :=
    fun k => congrArg (V c main_v13) (hb k)
  have hw' : ∀ k : Fin 256, iblk1 V c 3 t (ix2 k q)
      = V c main_arg5 (ix2 k ((((cfg1.win 4).blk t).view.emb (ix2 p q)) 1)) := fun k => congrArg (V c main_arg5) (hw k)
  simp only [ha', hd', hb', hw']

/-- An index of the array is in point t's block iff each coordinate is in the block's range on its axis. -/
theorem mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v26).slice (win1_4.rect t)).set ↔ _
  rw [View.set_slice_whole, Rect.mem_set_unit]
  exact Iff.rfl

/-- The blocks cover the array: row r lies in block r / 2000. -/
theorem cover (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- THE ARRAY the second kernel leaves. -/
theorem final (c : Dev nD) :
    (dat1 V c).arrAt 4 cfg1.N = G (V c main_v25) (V c main_v12) (V c main_v13) (V c main_arg5) :=
  (dat1 V c).arrAt_eq_of_cover 4 (G (V c main_v25) (V c main_v12) (V c main_v13) (V c main_arg5)) (fun t _ => flushed_eq V c t) cover

end Cert.KernelIdeal.Region1

end
-- ==== Proof.Region3.lean ====
/-
  The head kernel: pooled means, the last linear layer, and the two results.

  The kernel has one grid point and every window's block is its whole array, so each of the two arrays it
  leaves is the body's arithmetic of the whole arrays it finds: the first six columns of
  (sums / max(counts, 1)) · Wf + bf, and exp of the last six columns clamped into [−20, 2].
-/
import proofs.«180153_j7301444403652_2_alg».proof.Proof.Gen.KernelIdeal.Frame
import proofs.«180153_j7301444403652_2_alg».proof.Proof.Gcn
import proofs.«180153_j7301444403652_2_alg».proof.Proof.LibColumn
import Idealize.ShloMosaic.Lib.Pipeline.Value
import Idealize.ShloMosaic.Lib.ValueIdx

set_option maxRecDepth 16384

noncomputable section

namespace Cert.KernelIdeal.Region3

open Cert.KernelIdeal Cert.KernelIdeal.Gen Cert.Gcn
open Idealize.ShloMosaic Idealize.ShloMosaic.ValueIdx Idealize.ShloMosaic.TcCoe Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- The printed index maps at the one grid point: every block index is 0. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Input window 0's one block is its whole array. -/
theorem iblk_0 (c : Dev nD) (t : Fin cfg3.N) : (iblk3 V c 0 t : Vec Ideal S64x256 .f32) = V c main_v40 := by
  have hf := idx_facts t
  funext y
  show V c main_v40 (((cfg3.win 0).blk t).view.emb y) = V c main_v40 y
  refine congrArg (V c main_v40) ?_
  funext a; apply Fin.ext
  match a with
  | ⟨0, _⟩ => show win3_0.index t (0 : Fin 2) * 64 + 1 * (y 0).val = (y 0).val; have := hf.1; omega
  | ⟨1, _⟩ => show win3_0.index t (1 : Fin 2) * 256 + 1 * (y 1).val = (y 1).val; have := hf.2.1; omega

/-- Input window 1's one block is its whole array. -/
theorem iblk_1 (c : Dev nD) (t : Fin cfg3.N) : (iblk3 V c 1 t : Vec Ideal S64x1 .f32) = V c main_v45 := by
  have hf := idx_facts t
  funext y
  show V c main_v45 (((cfg3.win 1).blk t).view.emb y) = V c main_v45 y
  refine congrArg (V c main_v45) ?_
  funext a; apply Fin.ext
  match a with
  | ⟨0, _⟩ => show win3_1.index t (0 : Fin 2) * 64 + 1 * (y 0).val = (y 0).val; have := hf.2.2.1; omega
  | ⟨1, _⟩ => show win3_1.index t (1 : Fin 2) * 1 + 1 * (y 1).val = (y 1).val; have := hf.2.2.2.1; omega

/-- Input window 2's one block is its whole array. -/
theorem iblk_2 (c : Dev nD) (t : Fin cfg3.N) : (iblk3 V c 2 t : Vec Ideal S256x12 .f32) = V c main_arg7 := by
  have hf := idx_facts t
  funext y
  show V c main_arg7 (((cfg3.win 2).blk t).view.emb y) = V c main_arg7 y
  refine congrArg (V c main_arg7) ?_
  funext a; apply Fin.ext
  match a with
  | ⟨0, _⟩ => show win3_2.index t (0 : Fin 2) * 256 + 1 * (y 0).val = (y 0).val; have := hf.2.2.2.2.1; omega
  | ⟨1, _⟩ => show win3_2.index t (1 : Fin 2) * 12 + 1 * (y 1).val = (y 1).val; have := hf.2.2.2.2.2.1; omega

/-- Input window 3's one block is its whole array. -/
theorem iblk_3 (c : Dev nD) (t : Fin cfg3.N) : (iblk3 V c 3 t : Vec Ideal S1x12 .f32) = V c main_v46 := by
  have hf := idx_facts t
  funext y
  show V c main_v46 (((cfg3.win 3).blk t).view.emb y) = V c main_v46 y
  refine congrArg (V c main_v46) ?_
  funext a; apply Fin.ext
  match a with
  | ⟨0, _⟩ => show win3_3.index t (0 : Fin 2) * 1 + 1 * (y 0).val = (y 0).val; have := hf.2.2.2.2.2.2.1; omega
  | ⟨1, _⟩ => show win3_3.index t (1 : Fin 2) * 12 + 1 * (y 1).val = (y 1).val; have := hf.2.2.2.2.2.2.2.1; omega

/-- What the one point writes back to output window 4 is the body's result of the whole input arrays. -/
theorem flushed4_eq (c : Dev nD) (t : Fin cfg3.N) :
    (dat3 V c).flushed 4 t = ((cfg3.win 4).blk t).view.read (Elt Ideal)
      (k3_pay2 (F := Ideal) (V c main_v40) (V c main_v45) (V c main_arg7) (V c main_v46)) := by
  show (cfg3.win 4).cut (grid3.coords t) ((dat3 V c).after 4 t) = _
  rw [after3_4]
  unfold out3_4
  rw [View.canon_unit_zero origin]
  simp only [View.ld_unit_zero (S := S64x256) origin, View.ld_unit_zero (S := S64x1) origin, View.ld_unit_zero (S := S256x12) origin, View.ld_unit_zero (S := S1x12) origin]
  have hf := idx_facts t
  funext y
  show k3_pay2 (F := Ideal) (iblk3 V c 0 t) (iblk3 V c 1 t) (iblk3 V c 2 t) (iblk3 V c 3 t) y
    = k3_pay2 (F := Ideal) (V c main_v40) (V c main_v45) (V c main_arg7) (V c main_v46) (((cfg3.win 4).blk t).view.emb y)
  have hy : ((cfg3.win 4).blk t).view.emb y = y := by
    funext a; apply Fin.ext
    match a with
    | ⟨0, _⟩ => show win3_4.index t (0 : Fin 2) * 64 + 1 * (y 0).val = (y 0).val; have := hf.2.2.2.2.2.2.2.2.1; omega
    | ⟨1, _⟩ => show win3_4.index t (1 : Fin 2) * 6 + 1 * (y 1).val = (y 1).val; have := hf.2.2.2.2.2.2.2.2.2.1; omega
  rw [hy]
  exact congrFun (congr (congr (congr (congrArg (k3_pay2 (F := Ideal)) (iblk_0 V c t)) (iblk_1 V c t)) (iblk_2 V c t)) (iblk_3 V c t)) y

/-- An index of output array 4 is in the one block iff each coordinate is in the block's range. -/
theorem mem_blk4 (t : Fin cfg3.N) (i : S64x6.Idx) :
    i ∈ ((cfg3.win 4).blk t).view.set ↔ ∀ a : Fin 2, win3_4.index t a * S64x6.size a ≤ (i a).val
      ∧ (i a).val < win3_4.index t a * S64x6.size a + S64x6.size a := by
  show i ∈ ((View.whole main_v47_0).slice (win3_4.rect t)).set ↔ _
  rw [View.set_slice_whole, Rect.mem_set_unit]
  exact Iff.rfl

/-- The one block covers output array 4. -/
theorem cover4 (i : S64x6.Idx) : ∃ t : Fin cfg3.N, (cfg3.win 4).flush t = true ∧ i ∈ ((cfg3.win 4).blk t).view.set := by
  have hi0 : (i 0).val < 64 := (i 0).isLt
  have hi1 : (i 1).val < 6 := (i 1).isLt
  have hf := idx_facts t3_0
  refine ⟨t3_0, flush3_4 t3_0, ?_⟩
  rw [mem_blk4]
  intro a
  match a with
  | ⟨0, _⟩ => show win3_4.index t3_0 (0 : Fin 2) * 64 ≤ (i 0).val ∧ (i 0).val < win3_4.index t3_0 (0 : Fin 2) * 64 + 64; have := hf.2.2.2.2.2.2.2.2.1; omega
  | ⟨1, _⟩ => show win3_4.index t3_0 (1 : Fin 2) * 6 ≤ (i 1).val ∧ (i 1).val < win3_4.index t3_0 (1 : Fin 2) * 6 + 6; have := hf.2.2.2.2.2.2.2.2.2.1; omega

/-- THE ARRAY the head kernel leaves in output 4. -/
theorem final4 (c : Dev nD) :
    (dat3 V c).arrAt 4 cfg3.N = k3_pay2 (F := Ideal) (V c main_v40) (V c main_v45) (V c main_arg7) (V c main_v46) :=
  (dat3 V c).arrAt_eq_of_cover 4 (k3_pay2 (F := Ideal) (V c main_v40) (V c main_v45) (V c main_arg7) (V c main_v46)) (fun t _ => flushed4_eq V c t) cover4

/-- What the one point writes back to output window 5 is the body's result of the whole input arrays. -/
theorem flushed5_eq (c : Dev nD) (t : Fin cfg3.N) :
    (dat3 V c).flushed 5 t = ((cfg3.win 5).blk t).view.read (Elt Ideal)
      (k3_pay3 (F := Ideal) (V c main_v40) (V c main_v45) (V c main_arg7) (V c main_v46)) := by
  show (cfg3.win 5).cut (grid3.coords t) ((dat3 V c).after 5 t) = _
  rw [after3_5]
  unfold out3_5
  rw [View.canon_unit_zero origin]
  simp only [View.ld_unit_zero (S := S64x256) origin, View.ld_unit_zero (S := S64x1) origin, View.ld_unit_zero (S := S256x12) origin, View.ld_unit_zero (S := S1x12) origin]
  have hf := idx_facts t
  funext y
  show k3_pay3 (F := Ideal) (iblk3 V c 0 t) (iblk3 V c 1 t) (iblk3 V c 2 t) (iblk3 V c 3 t) y
    = k3_pay3 (F := Ideal) (V c main_v40) (V c main_v45) (V c main_arg7) (V c main_v46) (((cfg3.win 5).blk t).view.emb y)
  have hy : ((cfg3.win 5).blk t).view.emb y = y := by
    funext a; apply Fin.ext
    match a with
    | ⟨0, _⟩ => show win3_5.index t (0 : Fin 2) * 64 + 1 * (y 0).val = (y 0).val; have := hf.2.2.2.2.2.2.2.2.2.2.1; omega
    | ⟨1, _⟩ => show win3_5.index t (1 : Fin 2) * 6 + 1 * (y 1).val = (y 1).val; have := hf.2.2.2.2.2.2.2.2.2.2.2; omega
  rw [hy]
  exact congrFun (congr (congr (congr (congrArg (k3_pay3 (F := Ideal)) (iblk_0 V c t)) (iblk_1 V c t)) (iblk_2 V c t)) (iblk_3 V c t)) y

/-- An index of output array 5 is in the one block iff each coordinate is in the block's range. -/
theorem mem_blk5 (t : Fin cfg3.N) (i : S64x6.Idx) :
    i ∈ ((cfg3.win 5).blk t).view.set ↔ ∀ a : Fin 2, win3_5.index t a * S64x6.size a ≤ (i a).val
      ∧ (i a).val < win3_5.index t a * S64x6.size a + S64x6.size a := by
  show i ∈ ((View.whole main_v47_1).slice (win3_5.rect t)).set ↔ _
  rw [View.set_slice_whole, Rect.mem_set_unit]
  exact Iff.rfl

/-- The one block covers output array 5. -/
theorem cover5 (i : S64x6.Idx) : ∃ t : Fin cfg3.N, (cfg3.win 5).flush t = true ∧ i ∈ ((cfg3.win 5).blk t).view.set := by
  have hi0 : (i 0).val < 64 := (i 0).isLt
  have hi1 : (i 1).val < 6 := (i 1).isLt
  have hf := idx_facts t3_0
  refine ⟨t3_0, flush3_5 t3_0, ?_⟩
  rw [mem_blk5]
  intro a
  match a with
  | ⟨0, _⟩ => show win3_5.index t3_0 (0 : Fin 2) * 64 ≤ (i 0).val ∧ (i 0).val < win3_5.index t3_0 (0 : Fin 2) * 64 + 64; have := hf.2.2.2.2.2.2.2.2.2.2.1; omega
  | ⟨1, _⟩ => show win3_5.index t3_0 (1 : Fin 2) * 6 ≤ (i 1).val ∧ (i 1).val < win3_5.index t3_0 (1 : Fin 2) * 6 + 6; have := hf.2.2.2.2.2.2.2.2.2.2.2; omega

/-- THE ARRAY the head kernel leaves in output 5. -/
theorem final5 (c : Dev nD) :
    (dat3 V c).arrAt 5 cfg3.N = k3_pay3 (F := Ideal) (V c main_v40) (V c main_v45) (V c main_arg7) (V c main_v46) :=
  (dat3 V c).arrAt_eq_of_cover 5 (k3_pay3 (F := Ideal) (V c main_v40) (V c main_v45) (V c main_arg7) (V c main_v46)) (fun t _ => flushed5_eq V c t) cover5

end Cert.KernelIdeal.Region3

end
-- ==== Proof.KValue.lean ====
/-
  The value of the kernel program's two results.

  Reading the boundary fold from the end: the head kernel's two arrays are the body's arithmetic of the pooled
  sums, the node counts, the last weights and the last bias; the pooled sums accumulate the third kernel's rows
  by graph; the third kernel's rows are bias + clamp of the second accumulated table; that table accumulates, by
  destination, the gathered rows of the second kernel's array; and so on down to the arguments. Each stage is
  named here as one function of the argument arrays, and each boundary content is identified with its stage.
-/
import proofs.«180153_j7301444403652_2_alg».proof.Proof.Gen.KernelIdeal.Frame
import proofs.«180153_j7301444403652_2_alg».proof.Proof.Stages
import proofs.«180153_j7301444403652_2_alg».proof.Proof.Region0
import proofs.«180153_j7301444403652_2_alg».proof.Proof.Region1
import proofs.«180153_j7301444403652_2_alg».proof.Proof.Region2
import proofs.«180153_j7301444403652_2_alg».proof.Proof.Region3
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first kernel's array. -/
abbrev hs1 (c : Dev nD) : S50000x256.Idx → EReal := Region0.G (m ((c : Thread nD τ).loc main_arg0)) (m ((c : Thread nD τ).loc main_arg3)) (D (m ((c : Thread nD τ).loc main_arg1)))
/-- The second kernel's array. -/
abbrev hs2 (c : Dev nD) : S50000x256.Idx → EReal :=
  Region1.G (agg (m ((c : Thread nD τ).loc main_arg1)) (hs1 m c)) (D (m ((c : Thread nD τ).loc main_arg1))) (brow (m ((c : Thread nD τ).loc main_arg4))) (m ((c : Thread nD τ).loc main_arg5))
/-- The third kernel's array. -/
abbrev h2 (c : Dev nD) : S50000x256.Idx → EReal :=
  Region2.G (agg (m ((c : Thread nD τ).loc main_arg1)) (hs2 m c)) (D (m ((c : Thread nD τ).loc main_arg1))) (brow (m ((c : Thread nD τ).loc main_arg6)))
/-- The first result. -/
abbrev out0 (c : Dev nD) : S64x6.Idx → EReal :=
  k3_pay2 (F := Ideal) (pool (m ((c : Thread nD τ).loc main_arg2)) (h2 m c)) (ccol (m ((c : Thread nD τ).loc main_arg2))) (m ((c : Thread nD τ).loc main_arg7)) (frow (m ((c : Thread nD τ).loc main_arg8)))
/-- The second result. -/
abbrev out1 (c : Dev nD) : S64x6.Idx → EReal :=
  k3_pay3 (F := Ideal) (pool (m ((c : Thread nD τ).loc main_arg2)) (h2 m c)) (ccol (m ((c : Thread nD τ).loc main_arg2))) (m ((c : Thread nD τ).loc main_arg7)) (frow (m ((c : Thread nD τ).loc main_arg8)))

/-! ## Before the first kernel -/

theorem V1_arg0 (c : Dev nD) : V1 m ρ c main_arg0 = (m ((c : Thread nD τ).loc main_arg0)) := by
  show StableHlo.after hostOps0 (W0 m ρ c) (Proc.devRef .tc main_arg0) = _
  after_results <;> rfl
theorem V1_arg3 (c : Dev nD) : V1 m ρ c main_arg3 = (m ((c : Thread nD τ).loc main_arg3)) := by
  show StableHlo.after hostOps0 (W0 m ρ c) (Proc.devRef .tc main_arg3) = _
  after_results <;> rfl
theorem V1_arg5 (c : Dev nD) : V1 m ρ c main_arg5 = (m ((c : Thread nD τ).loc main_arg5)) := by
  show StableHlo.after hostOps0 (W0 m ρ c) (Proc.devRef .tc main_arg5) = _
  after_results <;> rfl
theorem V1_v12 (c : Dev nD) : V1 m ρ c main_v12 = D (m ((c : Thread nD τ).loc main_arg1)) := by
  show StableHlo.after hostOps0 (W0 m ρ c) (Proc.devRef .tc main_v12) = _
  after_results <;> rfl
theorem V1_v13 (c : Dev nD) : V1 m ρ c main_v13 = brow (m ((c : Thread nD τ).loc main_arg4)) := by
  show StableHlo.after hostOps0 (W0 m ρ c) (Proc.devRef .tc main_v13) = _
  after_results <;> rfl
theorem V1_v14 (c : Dev nD) : V1 m ρ c main_v14 = brow (m ((c : Thread nD τ).loc main_arg6)) := by
  show StableHlo.after hostOps0 (W0 m ρ c) (Proc.devRef .tc main_v14) = _
  after_results <;> rfl
theorem V1_v3 (c : Dev nD) : V1 m ρ c main_v3 = src (m ((c : Thread nD τ).loc main_arg1)) := by
  show StableHlo.after hostOps0 (W0 m ρ c) (Proc.devRef .tc main_v3) = _
  after_results <;> rfl
theorem V1_v6 (c : Dev nD) : V1 m ρ c main_v6 = dst (m ((c : Thread nD τ).loc main_arg1)) := by
  show StableHlo.after hostOps0 (W0 m ρ c) (Proc.devRef .tc main_v6) = _
  after_results <;> rfl

/-! ## After the first kernel -/

theorem W2_v15 (c : Dev nD) : W2 m ρ c (Proc.devRef .tc main_v15) = hs1 m c :=
  (W2_arr m ρ c 3).trans ((Region0.final (V1 m ρ) c).trans
    (congr (congr (congrArg Region0.G (V1_arg0 m ρ c)) (V1_arg3 m ρ c)) (V1_v12 m ρ c)))
theorem W2_v12 (c : Dev nD) : W2 m ρ c (Proc.devRef .tc main_v12) = D (m ((c : Thread nD τ).loc main_arg1)) :=
  (W2_arr m ρ c 2).trans (((dat0 (V1 m ρ) c).arrAt_in 2 rfl _).trans ((A_eq0 (V1 m ρ) c 2).trans (V1_v12 m ρ c)))
theorem W2_v3 (c : Dev nD) : W2 m ρ c (Proc.devRef .tc main_v3) = src (m ((c : Thread nD τ).loc main_arg1)) :=
  (W2_of_ne m ρ c main_v3 (by decide)).trans (V1_v3 m ρ c)
theorem W2_v6 (c : Dev nD) : W2 m ρ c (Proc.devRef .tc main_v6) = dst (m ((c : Thread nD τ).loc main_arg1)) :=
  (W2_of_ne m ρ c main_v6 (by decide)).trans (V1_v6 m ρ c)
theorem W2_v13 (c : Dev nD) : W2 m ρ c (Proc.devRef .tc main_v13) = brow (m ((c : Thread nD τ).loc main_arg4)) :=
  (W2_of_ne m ρ c main_v13 (by decide)).trans (V1_v13 m ρ c)
theorem W2_v14 (c : Dev nD) : W2 m ρ c (Proc.devRef .tc main_v14) = brow (m ((c : Thread nD τ).loc main_arg6)) :=
  (W2_of_ne m ρ c main_v14 (by decide)).trans (V1_v14 m ρ c)
theorem W2_arg5 (c : Dev nD) : W2 m ρ c (Proc.devRef .tc main_arg5) = (m ((c : Thread nD τ).loc main_arg5)) :=
  (W2_of_ne m ρ c main_arg5 (by decide)).trans (V1_arg5 m ρ c)

theorem V3_v25 (c : Dev nD) : V3 m ρ c main_v25 = agg (m ((c : Thread nD τ).loc main_arg1)) (hs1 m c) := by
  show StableHlo.after hostOps1 (W2 m ρ c) (Proc.devRef .tc main_v25) = _
  after_results
  rw [W2_v15, W2_v6, W2_v3]
  rfl
theorem V3_v12 (c : Dev nD) : V3 m ρ c main_v12 = D (m ((c : Thread nD τ).loc main_arg1)) := by
  show StableHlo.after hostOps1 (W2 m ρ c) (Proc.devRef .tc main_v12) = _
  after_results
  exact W2_v12 m ρ c
theorem V3_v13 (c : Dev nD) : V3 m ρ c main_v13 = brow (m ((c : Thread nD τ).loc main_arg4)) := by
  show StableHlo.after hostOps1 (W2 m ρ c) (Proc.devRef .tc main_v13) = _
  after_results
  exact W2_v13 m ρ c
theorem V3_arg5 (c : Dev nD) : V3 m ρ c main_arg5 = (m ((c : Thread nD τ).loc main_arg5)) := by
  show StableHlo.after hostOps1 (W2 m ρ c) (Proc.devRef .tc main_arg5) = _
  after_results
  exact W2_arg5 m ρ c
theorem W3_v3 (c : Dev nD) : W3 m ρ c (Proc.devRef .tc main_v3) = src (m ((c : Thread nD τ).loc main_arg1)) := by
  show StableHlo.after hostOps1 (W2 m ρ c) (Proc.devRef .tc main_v3) = _
  after_results
  exact W2_v3 m ρ c
theorem W3_v6 (c : Dev nD) : W3 m ρ c (Proc.devRef .tc main_v6) = dst (m ((c : Thread nD τ).loc main_arg1)) := by
  show StableHlo.after hostOps1 (W2 m ρ c) (Proc.devRef .tc main_v6) = _
  after_results
  exact W2_v6 m ρ c
theorem W3_v14 (c : Dev nD) : W3 m ρ c (Proc.devRef .tc main_v14) = brow (m ((c : Thread nD τ).loc main_arg6)) := by
  show StableHlo.after hostOps1 (W2 m ρ c) (Proc.devRef .tc main_v14) = _
  after_results
  exact W2_v14 m ρ c

/-! ## After the second kernel -/

theorem W4_v26 (c : Dev nD) : W4 m ρ c (Proc.devRef .tc main_v26) = hs2 m c :=
  (W4_arr m ρ c 4).trans ((Region1.final (V3 m ρ) c).trans
    (congr (congr (congr (congrArg Region1.G (V3_v25 m ρ c)) (V3_v12 m ρ c)) (V3_v13 m ρ c)) (V3_arg5 m ρ c)))
theorem W4_v12 (c : Dev nD) : W4 m ρ c (Proc.devRef .tc main_v12) = D (m ((c : Thread nD τ).loc main_arg1)) :=
  (W4_arr m ρ c 1).trans (((dat1 (V3 m ρ) c).arrAt_in 1 rfl _).trans ((A_eq1 (V3 m ρ) c 1).trans (V3_v12 m ρ c)))
theorem W4_v3 (c : Dev nD) : W4 m ρ c (Proc.devRef .tc main_v3) = src (m ((c : Thread nD τ).loc main_arg1)) :=
  (W4_of_ne m ρ c main_v3 (by decide)).trans (W3_v3 m ρ c)
theorem W4_v6 (c : Dev nD) : W4 m ρ c (Proc.devRef .tc main_v6) = dst (m ((c : Thread nD τ).loc main_arg1)) :=
  (W4_of_ne m ρ c main_v6 (by decide)).trans (W3_v6 m ρ c)
theorem W4_v14 (c : Dev nD) : W4 m ρ c (Proc.devRef .tc main_v14) = brow (m ((c : Thread nD τ).loc main_arg6)) :=
  (W4_of_ne m ρ c main_v14 (by decide)).trans (W3_v14 m ρ c)

theorem V5_v36 (c : Dev nD) : V5 m ρ c main_v36 = agg (m ((c : Thread nD τ).loc main_arg1)) (hs2 m c) := by
  show StableHlo.after hostOps2 (W4 m ρ c) (Proc.devRef .tc main_v36) = _
  after_results
  rw [W4_v26, W4_v6, W4_v3]
  rfl
theorem V5_v12 (c : Dev nD) : V5 m ρ c main_v12 = D (m ((c : Thread nD τ).loc main_arg1)) := by
  show StableHlo.after hostOps2 (W4 m ρ c) (Proc.devRef .tc main_v12) = _
  after_results
  exact W4_v12 m ρ c
theorem V5_v14 (c : Dev nD) : V5 m ρ c main_v14 = brow (m ((c : Thread nD τ).loc main_arg6)) := by
  show StableHlo.after hostOps2 (W4 m ρ c) (Proc.devRef .tc main_v14) = _
  after_results
  exact W4_v14 m ρ c

/-! ## After the third kernel -/

theorem W6_v37 (c : Dev nD) : W6 m ρ c (Proc.devRef .tc main_v37) = h2 m c :=
  (W6_arr m ρ c 3).trans ((Region2.final (V5 m ρ) c).trans
    (congr (congr (congrArg Region2.G (V5_v36 m ρ c)) (V5_v12 m ρ c)) (V5_v14 m ρ c)))

/-- An argument the head kernel does not read sits unchanged from before the last stretch to the end. -/
theorem W6_arg2 (c : Dev nD) : W6 m ρ c (Proc.devRef .tc main_arg2) = (m ((c : Thread nD τ).loc main_arg2)) := by
  have h7 : W7 m ρ c (Proc.devRef .tc main_arg2) = W6 m ρ c (Proc.devRef .tc main_arg2) := by
    show StableHlo.after hostOps3 (W6 m ρ c) (Proc.devRef .tc main_arg2) = _
    after_results
  exact h7.symm.trans ((W8_of_ne m ρ c main_arg2 (by decide)).symm.trans (W8_main_arg2 m ρ c))
theorem W6_arg8 (c : Dev nD) : W6 m ρ c (Proc.devRef .tc main_arg8) = (m ((c : Thread nD τ).loc main_arg8)) := by
  have h7 : W7 m ρ c (Proc.devRef .tc main_arg8) = W6 m ρ c (Proc.devRef .tc main_arg8) := by
    show StableHlo.after hostOps3 (W6 m ρ c) (Proc.devRef .tc main_arg8) = _
    after_results
  exact h7.symm.trans ((W8_of_ne m ρ c main_arg8 (by decide)).symm.trans (W8_main_arg8 m ρ c))

theorem V7_v40 (c : Dev nD) : V7 m ρ c main_v40 = pool (m ((c : Thread nD τ).loc main_arg2)) (h2 m c) := by
  show StableHlo.after hostOps3 (W6 m ρ c) (Proc.devRef .tc main_v40) = _
  after_results
  rw [W6_v37, W6_arg2]
  rfl
theorem V7_v45 (c : Dev nD) : V7 m ρ c main_v45 = ccol (m ((c : Thread nD τ).loc main_arg2)) := by
  show StableHlo.after hostOps3 (W6 m ρ c) (Proc.devRef .tc main_v45) = _
  after_results
  rw [W6_arg2]
  rfl
theorem V7_v46 (c : Dev nD) : V7 m ρ c main_v46 = frow (m ((c : Thread nD τ).loc main_arg8)) := by
  show StableHlo.after hostOps3 (W6 m ρ c) (Proc.devRef .tc main_v46) = _
  after_results
  rw [W6_arg8]
  rfl
theorem V7_arg7 (c : Dev nD) : V7 m ρ c main_arg7 = (m ((c : Thread nD τ).loc main_arg7)) :=
  ((W8_arr m ρ c 2).trans (((dat3 (V7 m ρ) c).arrAt_in 2 rfl _).trans (A_eq3 (V7 m ρ) c 2))).symm.trans (W8_main_arg7 m ρ c)

/-! ## The results -/

theorem W8_out0 (c : Dev nD) : W8 m ρ c (Proc.devRef .tc main_v47_0) = out0 m c :=
  (W8_arr m ρ c 4).trans ((Region3.final4 (V7 m ρ) c).trans
    (congr (congr (congr (congrArg (k3_pay2 (F := Ideal)) (V7_v40 m ρ c)) (V7_v45 m ρ c)) (V7_arg7 m ρ c)) (V7_v46 m ρ c)))
theorem W8_out1 (c : Dev nD) : W8 m ρ c (Proc.devRef .tc main_v47_1) = out1 m c :=
  (W8_arr m ρ c 5).trans ((Region3.final5 (V7 m ρ) c).trans
    (congr (congr (congr (congrArg (k3_pay3 (F := Ideal)) (V7_v40 m ρ c)) (V7_v45 m ρ c)) (V7_arg7 m ρ c)) (V7_v46 m ρ c)))

end Cert.KernelIdeal.KValue

end
-- ==== Proof.Edges.lean ====
/-
  Facts about the edge lists that the layer identity needs.

  Every node n has a self loop: edge 400000 + n has destination n. Hence the degree of n, a count of edges,
  is a real number at least 1, and its inverse square root a nonnegative real. And an edge whose destination
  word reads n (a node, so not negative) keeps that word under the wrap of negative indices, and the clamp
  into the table leaves n.
-/
import proofs.«180153_j7301444403652_2_alg».proof.Proof.Stages
import proofs.«180153_j7301444403652_2_alg».proof.Proof.Gcn
import proofs.«180153_j7301444403652_2_alg».proof.Proof.LibColumn
import Idealize.ShloMosaic.Lib.Pipeline.Value
import Idealize.ShloMosaic.Lib.ValueIdx
import Idealize.ShloMosaic.Lib.IdealHost

set_option maxRecDepth 16384

noncomputable section

open scoped BigOperators

namespace Cert.KernelIdeal.Edges

open Cert.KernelIdeal Cert.KernelIdeal.Facts₀ Cert.KernelIdeal.Facts Cert.KernelIdeal.KValue Cert.Gcn
open Idealize.ShloMosaic Idealize.ShloMosaic.ValueIdx

/-- The host's accumulating scatter at the ideal instance is the exact sum of the updates that land. -/
theorem host_scatterAdd_eq {s si su : Shape} {w : Nat} (d : ScatterDims s si su) (x : FVec Ideal s .f32) (idx : IVec si w)
    (upd : FVec Ideal su .f32) : Host.scatterAdd (F := Ideal) d x idx upd = Ideal.hostScatterAdd d x idx upd := rfl

/-- A finite count with a witness is a real number at least 1. -/
theorem count_pos {ι : Type*} [DecidableEq ι] (s : Finset ι) (p : ι → Prop) [DecidablePred p] (e0 : ι) (h0 : e0 ∈ s) (hp : p e0) :
    ∃ r : ℝ, 1 ≤ r ∧ (∑ e ∈ s, if p e then (1 : EReal) else 0) = (r : EReal) := by
  obtain ⟨r', hr0, hr'⟩ := Cert.NormSum.count_finset_nonneg_real (s.erase e0) p
  refine ⟨1 + r', by linarith, ?_⟩
  rw [← Finset.add_sum_erase s _ h0, if_pos hp, hr', EReal.coe_add, EReal.coe_one]

/-- An accumulation of ones from zero counts the updates that land; with one that does, it is a real number
    at least 1. -/
theorem scatter_count_real {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) (hx : ∀ i, x i = 0) (hu : ∀ i, upd i = 1) (e0 : Fin M)
    (h0 : (idx (ix2 e0 (0 : Fin 1))).toInt = (n.val : ℤ)) :
    ∃ r : ℝ, 1 ≤ r ∧ Ideal.hostScatterAdd (Cert.Rows1.scatter1 N M wf) x idx upd (ix1 n) = (r : EReal) := by
  rw [Cert.Rows1.scatterAdd1_apply, hx, zero_add]
  simp only [hu]
  exact count_pos Finset.univ (fun e : Fin M => (idx (ix2 e (0 : Fin 1))).toInt = (n.val : ℤ)) e0 (Finset.mem_univ _) h0

/-- The host's inverse square root reads entry by entry. -/
theorem host_rsqrt_apply {s : Shape} (x : FVec Ideal s .f32) (i : s.Idx) :
    Host.rsqrt (F := Ideal) x i = Ideal.rsqrt (x i) := rfl

variable (a1 : (⟨S2x400000, .i32⟩ : BufTy).Contents (Elt Ideal))

/-- A node number as a 32-bit word reads back signed as itself. -/
theorem toInt_node (n : Nat) (h : n < 50000) : (BitVec.ofNat 32 n).toInt = (n : ℤ) := by
  rw [BitVec.toInt_eq_toNat_cond, BitVec.toNat_ofNat]
  have hm : n % 2 ^ 32 = n := Nat.mod_eq_of_lt (by omega)
  rw [hm]
  split <;> omega

/-- The destination of the self loop of node n is n. -/
theorem dst_self (n : Fin 50000) : dst a1 (ix1 (⟨400000 + n.val, by omega⟩ : Fin 450000)) = BitVec.ofNat 32 n.val := by
  unfold dst
  exact concatenate_pair_apply_right (0 : Fin 1) _ (iotaInDim S50000 32 0) concatenates_S400000_S50000_S450000_d0
    (ix1 (⟨400000 + n.val, by omega⟩ : Fin 450000)) rfl rfl (ix1 n)
    (fun b hb => absurd (Fin.ext (show (Fin.cast _ b).val = (0 : Fin 1).val from by
      have hb1 : b.val < 1 := b.isLt
      show b.val = 0
      omega)) hb)
    (by show n.val + 400000 = 400000 + n.val; omega)

/-- The destination column at edge e is the destination word of e. -/
theorem dcol_apply (e : Fin 450000) : dcol a1 (ix2 e (0 : Fin 1)) = dst a1 (ix1 e) :=
  colInDim_apply (dst a1) bcast_S450000_S450000x1_0 e 0

/-- The degree of node n is a real number at least 1. -/
theorem deg_real (n : Fin 50000) : ∃ r : ℝ, 1 ≤ r ∧ deg a1 (ix1 n) = (r : EReal) := by
  have hself : (dcol a1 (ix2 (⟨400000 + n.val, by omega⟩ : Fin 450000) (0 : Fin 1))).toInt = (n.val : ℤ) := by
    rw [dcol_apply, dst_self, toInt_node n.val n.isLt]
  have hrec : scatter_S50000_S450000x1_S450000_n_0_0_1
      = Cert.Rows1.scatter1 50000 450000 scatter_S50000_S450000x1_S450000_n_0_0_1_wf := rfl
  have hzero : ∀ i : S50000.Idx, broadcastInDim S50000 ![] bcast_S_S50000 (constant (F := Ideal) S_ .f32 0x00000000#32) i = 0 :=
    fun i => (show _ = Ideal.ofBits .f32 0x00000000#32 from rfl).trans Ideal.ofBits_zero_f32
  have hone : ∀ i : S450000.Idx, broadcastInDim S450000 ![] bcast_S_S450000 (constant (F := Ideal) S_ .f32 0x3F800000#32) i = 1 :=
    fun i => (show _ = Ideal.ofBits .f32 0x3F800000#32 from rfl).trans Ideal.ofBits_one_f32
  unfold deg
  rw [host_scatterAdd_eq, hrec]
  exact scatter_count_real _ _ _ _ n hzero hone ⟨400000 + n.val, by omega⟩ hself

/-- The inverse square root of the degree is a nonnegative real. -/
theorem dis_real (n : Fin 50000) : 0 ≤ dis a1 (ix1 n) ∧ dis a1 (ix1 n) ≠ ⊤ := by
  obtain ⟨r, hr1, hr⟩ := deg_real a1 n
  have hd : dis a1 (ix1 n) = Ideal.rsqrt (deg a1 (ix1 n)) := by
    unfold dis
    rw [host_rsqrt_apply]
  rw [hd, hr, Ideal.rsqrt_coe, if_neg (not_lt.2 (by linarith)), if_neg (ne_of_gt (by linarith))]
  exact ⟨EReal.coe_nonneg.2 (inv_nonneg.2 (Real.sqrt_nonneg r)), EReal.coe_ne_top _⟩

/-- The factor column at (n, 0) is the factor of n. -/
theorem D_apply (n : Fin 50000) : D a1 (ix2 n (0 : Fin 1)) = dis a1 (ix1 n) :=
  Cert.Column.shapeCast_a_a1_apply (dis a1) shapeCasts_S50000_S50000x1 n 0

/-- A destination word that reads as node n is not wrapped, and the clamp into the table leaves n. -/
theorem wrap_dst (e : Fin 450000) (n : Fin 50000) (h : (dcol a1 (ix2 e (0 : Fin 1))).toInt = (n.val : ℤ)) :
    rowAt (N := 50000) (by omega) (dwcol a1) e = n := by
  rw [dcol_apply] at h
  have hw : dwcol a1 (ix2 e (0 : Fin 1)) = dst a1 (ix1 e) := by
    unfold dwcol
    rw [colInDim_apply]
    show Scalar.select (IntOp.cmpi .slt (dst a1 (ix1 e)) 0#32) (IntOp.addi (dst a1 (ix1 e)) 50000#32) (dst a1 (ix1 e)) = _
    have hs : (dst a1 (ix1 e)).slt 0#32 = false := by
      rw [BitVec.slt, decide_eq_false_iff_not, h]
      simp
    unfold Scalar.select IntOp.cmpi
    rw [hs]
    rfl
  apply Fin.ext
  show min (dwcol a1 (ix2 e (0 : Fin 1))).toInt.toNat (50000 - 1) = n.val
  rw [hw, h]
  have := n.isLt
  simp only [Int.toNat_natCast]
  omega

/-- The accumulator of zeros reads 0 everywhere. -/
theorem zeros_apply (i : S50000x256.Idx) :
    broadcastInDim S50000x256 ![] bcast_S_S50000x256 (constant (F := Ideal) S_ .f32 0x00000000#32) i = 0 :=
  (show _ = Ideal.ofBits .f32 0x00000000#32 from rfl).trans Ideal.ofBits_zero_f32

end Cert.KernelIdeal.Edges

end
-- ==== Proof.Bridge.lean ====
/-
  The reference network is the kernel network.

  Both programs build the same edge lists, degrees and start-index columns. The reference computes a layer as
  relu(Σ_{e → n} H(src e) · (dis(src e) · dis(dst e)) + b); the kernels compute relu((Σ_{e → n} (H · dis)(src e)) · dis(n) + b).
  The layer identity makes these one function, layer after layer; the pooled head is the same arithmetic spelt
  for the vector unit and for the host.
-/
import proofs.«180153_j7301444403652_2_alg».proof.Proof.Gen.ReferenceIdeal.Read
import proofs.«180153_j7301444403652_2_alg».proof.Proof.Stages
import proofs.«180153_j7301444403652_2_alg».proof.Proof.Edges
import proofs.«180153_j7301444403652_2_alg».proof.Proof.Gcn
import proofs.«180153_j7301444403652_2_alg».proof.Proof.Region0
import proofs.«180153_j7301444403652_2_alg».proof.Proof.Region1
import proofs.«180153_j7301444403652_2_alg».proof.Proof.Region2
import proofs.«180153_j7301444403652_2_alg».proof.Proof.LibRowDot
import proofs.«180153_j7301444403652_2_alg».proof.Proof.LibRowBias
import proofs.«180153_j7301444403652_2_alg».proof.Proof.LibColumn

set_option maxRecDepth 16384

noncomputable section

open scoped BigOperators

namespace Cert.Bridge

open Cert.KernelIdeal Cert.KernelIdeal.Facts₀ Cert.KernelIdeal.Facts Cert.KernelIdeal.KValue Cert.Gcn Cert.RowBias
open Idealize.ShloMosaic Idealize.ShloMosaic.ValueIdx

/-! ## The matrix products -/

/-- The reference's first product is X · W1. -/
theorem ref_mm1 (a0 : (⟨S50000x32, .f32⟩ : BufTy).Contents (Elt Ideal)) (a3 : (⟨S32x256, .f32⟩ : BufTy).Contents (Elt Ideal)) :
    Cert.ReferenceIdeal.Read.val_main_v12 (F := Ideal) a0 a3 = mm a0 a3 := by
  funext j
  unfold Cert.ReferenceIdeal.Read.val_main_v12
  simp only [Host.dotGeneral]
  exact Cert.RowDot.dotGeneral_plain_apply none _ a0 a3 j

/-- The reference's second product is X · W2. -/
theorem ref_mm2 (X : (⟨S50000x256, .f32⟩ : BufTy).Contents (Elt Ideal)) (a5 : (⟨S256x256, .f32⟩ : BufTy).Contents (Elt Ideal)) :
    Host.dotGeneral (F := Ideal) (φ₁ := .f32) (φ₂ := .f32) Cert.ReferenceIdeal.dot_S50000x256_S256x256_S50000x256_1_0_0_1_n_n none X a5 = mm X a5 := by
  funext j
  simp only [Host.dotGeneral]
  exact Cert.RowDot.dotGeneral_plain_apply none _ X a5 j

/-! ## One layer -/

/-- The reference's layer over a table H: gather, weight per edge, accumulate, add the bias, clamp at 0. -/
def refLayer (H : (⟨S50000x256, .f32⟩ : BufTy).Contents (Elt Ideal)) (a1 : (⟨S2x400000, .i32⟩ : BufTy).Contents (Elt Ideal))
    (b : (⟨S256, .f32⟩ : BufTy).Contents (Elt Ideal)) : (⟨S50000x256, .f32⟩ : BufTy).Contents (Elt Ideal) :=
  maximumf (F := Ideal) (φ := .f32)
    (addf (F := Ideal) (φ := .f32)
      (Host.scatterAdd (F := Ideal) Cert.ReferenceIdeal.scatter_S50000x256_S450000x1_S450000x256_1_0_0_1
        (broadcastInDim S50000x256 ![] Cert.ReferenceIdeal.Facts₀.bcast_S_S50000x256 (constant S_ .f32 0x00000000#32)) (dcol a1)
        (mulf (F := Ideal) (φ := .f32) (Host.gather Cert.ReferenceIdeal.gather_S50000x256_S450000x1_S450000x256_1_0_n_n_0_1_1256 H (scol a1))
          (broadcastInDim S450000x256 ![0, 1] Cert.ReferenceIdeal.Facts₀.bcast_S450000x1_S450000x256_0_1
            (broadcastInDim S450000x1 ![0] Cert.ReferenceIdeal.Facts₀.bcast_S450000_S450000x1_0
              (mulf (F := Ideal) (φ := .f32) (Host.gather Cert.ReferenceIdeal.gather_S50000_S450000x1_S450000_n_0_n_n_0_1_1 (dis a1) (scol a1))
                (Host.gather Cert.ReferenceIdeal.gather_S50000_S450000x1_S450000_n_0_n_n_0_1_1 (dis a1) (dwcol a1)))))))
      (broadcastInDim S50000x256 ![0, 1] Cert.ReferenceIdeal.Facts₀.bcast_S1x256_S50000x256_0_1 (broadcastInDim S1x256 ![1] Cert.ReferenceIdeal.Facts₀.bcast_S256_S1x256_1 b)))
    (broadcastInDim S50000x256 ![] Cert.ReferenceIdeal.Facts₀.bcast_S_S50000x256 (constant S_ .f32 0x00000000#32))

/-- The reference's layer is the kernels' layer: rows scaled before the gather and after the scatter. -/
theorem refLayer_eq (H : (⟨S50000x256, .f32⟩ : BufTy).Contents (Elt Ideal)) (a1 : (⟨S2x400000, .i32⟩ : BufTy).Contents (Elt Ideal))
    (b : (⟨S256, .f32⟩ : BufTy).Contents (Elt Ideal)) :
    refLayer H a1 b = Region2.G (agg a1 (scaleRows H (D a1))) (D a1) (brow b) := by
  have hL := layer_eq (N := 50000) (C := 256) (M := 450000) (by omega)
    gather_S50000x256_S450000x1_S450000x256_1_0_n_n_0_1_1256_wf scatter_S50000x256_S450000x1_S450000x256_1_0_0_1_wf
    Cert.ReferenceIdeal.Facts₀.gather_S50000_S450000x1_S450000_n_0_n_n_0_1_1_wf Cert.ReferenceIdeal.Facts₀.bcast_S450000_S450000x1_0 Cert.ReferenceIdeal.Facts₀.bcast_S450000x1_S450000x256_0_1
    H (broadcastInDim S50000x256 ![] bcast_S_S50000x256 (constant (F := Ideal) S_ .f32 0x00000000#32)) (dis a1) (D a1)
    (scol a1) (dwcol a1) (dcol a1) Edges.zeros_apply (Edges.D_apply a1) (Edges.dis_real a1) (Edges.wrap_dst a1)
  have hS : Cert.ReferenceIdeal.scatter_S50000x256_S450000x1_S450000x256_1_0_0_1
      = Cert.Rows.scatter2 50000 256 450000 scatter_S50000x256_S450000x1_S450000x256_1_0_0_1_wf := rfl
  have hS' : scatter_S50000x256_S450000x1_S450000x256_1_0_0_1
      = Cert.Rows.scatter2 50000 256 450000 scatter_S50000x256_S450000x1_S450000x256_1_0_0_1_wf := rfl
  have hG : Cert.ReferenceIdeal.gather_S50000x256_S450000x1_S450000x256_1_0_n_n_0_1_1256
      = Cert.Rows.gather2 50000 256 450000 gather_S50000x256_S450000x1_S450000x256_1_0_n_n_0_1_1256_wf := rfl
  have hG' : gather_S50000x256_S450000x1_S450000x256_1_0_n_n_0_1_1256
      = Cert.Rows.gather2 50000 256 450000 gather_S50000x256_S450000x1_S450000x256_1_0_n_n_0_1_1256_wf := rfl
  have hG1 : Cert.ReferenceIdeal.gather_S50000_S450000x1_S450000_n_0_n_n_0_1_1
      = Cert.Rows1.gather1 50000 450000 Cert.ReferenceIdeal.Facts₀.gather_S50000_S450000x1_S450000_n_0_n_n_0_1_1_wf := rfl
  unfold refLayer
  rw [Cert.RowBias.maximumf_hostSplat_eq, Cert.RowBias.addf_hostSpread_eq _ _ _ _ shapeCasts_S256_S1x256]
  unfold Region2.G agg brow
  rw [Edges.host_scatterAdd_eq, Edges.host_scatterAdd_eq, hS, hS', hG, hG', hG1, hL]

/-- The reference's first layer, as the layer over X · W1. -/
theorem v44_eq (a0 : (⟨S50000x32, .f32⟩ : BufTy).Contents (Elt Ideal)) (a1 : (⟨S2x400000, .i32⟩ : BufTy).Contents (Elt Ideal))
    (a3 : (⟨S32x256, .f32⟩ : BufTy).Contents (Elt Ideal)) (a4 : (⟨S256, .f32⟩ : BufTy).Contents (Elt Ideal)) :
    Cert.ReferenceIdeal.Read.val_main_v44 (F := Ideal) a0 a1 a3 a4 = refLayer (Cert.ReferenceIdeal.Read.val_main_v12 (F := Ideal) a0 a3) a1 a4 := rfl

/-- The reference's second layer, as the layer over (first layer) · W2. -/
theorem v77_eq (a0 : (⟨S50000x32, .f32⟩ : BufTy).Contents (Elt Ideal)) (a1 : (⟨S2x400000, .i32⟩ : BufTy).Contents (Elt Ideal))
    (a3 : (⟨S32x256, .f32⟩ : BufTy).Contents (Elt Ideal)) (a4 : (⟨S256, .f32⟩ : BufTy).Contents (Elt Ideal))
    (a5 : (⟨S256x256, .f32⟩ : BufTy).Contents (Elt Ideal)) (a6 : (⟨S256, .f32⟩ : BufTy).Contents (Elt Ideal)) :
    Cert.ReferenceIdeal.Read.val_main_v77 (F := Ideal) a0 a1 a3 a4 a5 a6
      = refLayer (Host.dotGeneral (F := Ideal) (φ₁ := .f32) (φ₂ := .f32) Cert.ReferenceIdeal.dot_S50000x256_S256x256_S50000x256_1_0_0_1_n_n none
          (Cert.ReferenceIdeal.Read.val_main_v44 (F := Ideal) a0 a1 a3 a4) a5) a1 a6 := rfl

/-- The node features after both layers, in the kernels' spelling. -/
def feat (a0 : (⟨S50000x32, .f32⟩ : BufTy).Contents (Elt Ideal)) (a1 : (⟨S2x400000, .i32⟩ : BufTy).Contents (Elt Ideal))
    (a3 : (⟨S32x256, .f32⟩ : BufTy).Contents (Elt Ideal)) (a4 : (⟨S256, .f32⟩ : BufTy).Contents (Elt Ideal))
    (a5 : (⟨S256x256, .f32⟩ : BufTy).Contents (Elt Ideal)) (a6 : (⟨S256, .f32⟩ : BufTy).Contents (Elt Ideal)) :
    S50000x256.Idx → EReal :=
  Region2.G (agg a1 (Region1.G (agg a1 (Region0.G a0 a3 (D a1))) (D a1) (brow a4) a5)) (D a1) (brow a6)

/-- The reference's node features are the kernels'. -/
theorem v77_feat (a0 : (⟨S50000x32, .f32⟩ : BufTy).Contents (Elt Ideal)) (a1 : (⟨S2x400000, .i32⟩ : BufTy).Contents (Elt Ideal))
    (a3 : (⟨S32x256, .f32⟩ : BufTy).Contents (Elt Ideal)) (a4 : (⟨S256, .f32⟩ : BufTy).Contents (Elt Ideal))
    (a5 : (⟨S256x256, .f32⟩ : BufTy).Contents (Elt Ideal)) (a6 : (⟨S256, .f32⟩ : BufTy).Contents (Elt Ideal)) :
    Cert.ReferenceIdeal.Read.val_main_v77 (F := Ideal) a0 a1 a3 a4 a5 a6 = feat a0 a1 a3 a4 a5 a6 := by
  rw [v77_eq, v44_eq, ref_mm1, refLayer_eq, ref_mm2, refLayer_eq]
  rfl

end Cert.Bridge

end
-- ==== Proof.Head.lean ====
/-
  The pooled head, spelt for the vector unit and for the host.

  Both programs divide the pooled sums of a graph by its node count, at least 1; multiply by Wf; add bf; and
  return the first six columns and exp of the last six clamped into [−20, 2]. The host keeps the counts as a
  vector and spreads them; the kernel receives them as a column.
-/
import proofs.«180153_j7301444403652_2_alg».proof.Proof.Bridge
import proofs.«180153_j7301444403652_2_alg».proof.Proof.Gen.KernelIdeal.Skeleton

set_option maxRecDepth 16384

noncomputable section

open scoped BigOperators

namespace Cert.Head

open Cert.KernelIdeal Cert.KernelIdeal.Facts₀ Cert.KernelIdeal.Facts Cert.KernelIdeal.KValue Cert.Gcn Cert.RowBias Cert.Bridge
open Cert.KernelIdeal.Gen (k3_pay1 k3_pay2 k3_pay3)
open Idealize.ShloMosaic Idealize.ShloMosaic.ValueIdx

/-- Entry by entry: the vector unit's quotient, the host's quotient, a maximum, a sum, a splat. -/
theorem divf_at {s : Shape} (x y : FVec Ideal s .f32) (i : s.Idx) : divf (F := Ideal) x y i = Ideal.div (x i) (y i) := rfl
theorem hostDivf_at {s : Shape} (x y : FVec Ideal s .f32) (i : s.Idx) : Host.divf (F := Ideal) x y i = Ideal.div (x i) (y i) := rfl
theorem maximumf_at {s : Shape} (x y : FVec Ideal s .f32) (i : s.Idx) : maximumf (F := Ideal) x y i = max (x i) (y i) := rfl
theorem addf_at {s : Shape} (x y : FVec Ideal s .f32) (i : s.Idx) : addf (F := Ideal) x y i = x i + y i := rfl
theorem splat_at {s : Shape} (b : BitVec 32) (i : s.Idx) :
    broadcast s (Scalar.ofBits (F := Ideal) .f32 b) i = Ideal.ofBits .f32 b := rfl
theorem hostSplat_at {s : Shape} (h : (⟨0, ![]⟩ : Shape).BroadcastsInDim s ![]) (b : BitVec 32) (i : s.Idx) :
    broadcastInDim s ![] h (constant (F := Ideal) ⟨0, ![]⟩ .f32 b) i = Ideal.ofBits .f32 b := rfl

/-- The host's node counts per graph. -/
def cntR (a2 : (⟨S50000, .i32⟩ : BufTy).Contents (Elt Ideal)) : (⟨S64, .f32⟩ : BufTy).Contents (Elt Ideal) :=
  Host.scatterAdd (F := Ideal) Cert.ReferenceIdeal.scatter_S64_S50000x1_S50000_n_0_0_1
    (broadcastInDim S64 ![] Cert.ReferenceIdeal.Facts₀.bcast_S_S64 (constant S_ .f32 0x00000000#32)) (bcol a2)
    (broadcastInDim S50000 ![] Cert.ReferenceIdeal.Facts₀.bcast_S_S50000 (constant S_ .f32 0x3F800000#32))

/-- The host's pooled means over a table of pooled sums. -/
def quotR (S : (⟨S64x256, .f32⟩ : BufTy).Contents (Elt Ideal)) (a2 : (⟨S50000, .i32⟩ : BufTy).Contents (Elt Ideal)) :
    (⟨S64x256, .f32⟩ : BufTy).Contents (Elt Ideal) :=
  Host.divf (F := Ideal) (φ := .f32) S (broadcastInDim S64x256 ![0, 1] Cert.ReferenceIdeal.Facts₀.bcast_S64x1_S64x256_0_1
    (broadcastInDim S64x1 ![0] Cert.ReferenceIdeal.Facts₀.bcast_S64_S64x1_0 (maximumf (F := Ideal) (φ := .f32) (cntR a2)
      (broadcastInDim S64 ![] Cert.ReferenceIdeal.Facts₀.bcast_S_S64 (constant S_ .f32 0x3F800000#32)))))

/-- The vector unit's pooled means are the host's. -/
theorem quot_eq (S : (⟨S64x256, .f32⟩ : BufTy).Contents (Elt Ideal)) (a2 : (⟨S50000, .i32⟩ : BufTy).Contents (Elt Ideal)) :
    divf (F := Ideal) (φ := .f32) (shapeCast S64x256 S shapeCasts_S64x256_S64x256)
      (broadcastTo S64x256 (maximumf (F := Ideal) (φ := .f32) (shapeCast S64x1 (ccol a2) shapeCasts_S64x1_S64x1)
        (broadcast S64x1 (Scalar.ofBits (F := Ideal) .f32 0x3F800000#32))) broadcasts_S64x1_S64x256)
      = quotR S a2 := by
  funext j
  obtain ⟨g, k, rfl⟩ : ∃ (g : Fin 64) (k : Fin 256), j = ix2 g k := ⟨j 0, j 1, eq_ix2 j⟩
  have hcnt : Host.scatterAdd (F := Ideal) scatter_S64_S50000x1_S50000_n_0_0_1
      (broadcastInDim S64 ![] bcast_S_S64 (constant S_ .f32 0x00000000#32)) (bcol a2)
      (broadcastInDim S50000 ![] bcast_S_S50000 (constant S_ .f32 0x3F800000#32)) = cntR a2 := rfl
  unfold quotR ccol
  rw [divf_at, hostDivf_at, shapeCast_self, shapeCast_self, Cert.Column.broadcastTo_a1_ab_apply, spreadColInDim_apply,
    colInDim_apply, maximumf_at, maximumf_at, splat_at, hostSplat_at, Cert.Column.shapeCast_a_a1_apply, hcnt]

/-- The host's logits over a table of node features. -/
def refLogits (T : (⟨S50000x256, .f32⟩ : BufTy).Contents (Elt Ideal)) (a2 : (⟨S50000, .i32⟩ : BufTy).Contents (Elt Ideal))
    (a7 : (⟨S256x12, .f32⟩ : BufTy).Contents (Elt Ideal)) (a8 : (⟨S12, .f32⟩ : BufTy).Contents (Elt Ideal)) :
    (⟨S64x12, .f32⟩ : BufTy).Contents (Elt Ideal) :=
  addf (F := Ideal) (φ := .f32)
    (Host.dotGeneral (F := Ideal) (φ₁ := .f32) (φ₂ := .f32) Cert.ReferenceIdeal.dot_S64x256_S256x12_S64x12_1_0_0_1_n_n none
      (quotR (Host.scatterAdd (F := Ideal) Cert.ReferenceIdeal.scatter_S64x256_S50000x1_S50000x256_1_0_0_1
        (broadcastInDim S64x256 ![] Cert.ReferenceIdeal.Facts₀.bcast_S_S64x256 (constant S_ .f32 0x00000000#32)) (bcol a2) T) a2) a7)
    (broadcastInDim S64x12 ![0, 1] Cert.ReferenceIdeal.Facts₀.bcast_S1x12_S64x12_0_1 (broadcastInDim S1x12 ![1] Cert.ReferenceIdeal.Facts₀.bcast_S12_S1x12_1 a8))

/-- The reference's logits are the host's logits over its node features. -/
theorem v93_eq (a0 : (⟨S50000x32, .f32⟩ : BufTy).Contents (Elt Ideal)) (a1 : (⟨S2x400000, .i32⟩ : BufTy).Contents (Elt Ideal))
    (a2 : (⟨S50000, .i32⟩ : BufTy).Contents (Elt Ideal)) (a3 : (⟨S32x256, .f32⟩ : BufTy).Contents (Elt Ideal))
    (a4 : (⟨S256, .f32⟩ : BufTy).Contents (Elt Ideal)) (a5 : (⟨S256x256, .f32⟩ : BufTy).Contents (Elt Ideal))
    (a6 : (⟨S256, .f32⟩ : BufTy).Contents (Elt Ideal)) (a7 : (⟨S256x12, .f32⟩ : BufTy).Contents (Elt Ideal))
    (a8 : (⟨S12, .f32⟩ : BufTy).Contents (Elt Ideal)) :
    Cert.ReferenceIdeal.Read.val_main_v93 (F := Ideal) a0 a1 a2 a3 a4 a5 a6 a7 a8 = refLogits (Cert.ReferenceIdeal.Read.val_main_v77 (F := Ideal) a0 a1 a3 a4 a5 a6) a2 a7 a8 := rfl

/-- The host's logits are the head kernel's. -/
theorem logits_eq (T : (⟨S50000x256, .f32⟩ : BufTy).Contents (Elt Ideal)) (a2 : (⟨S50000, .i32⟩ : BufTy).Contents (Elt Ideal))
    (a7 : (⟨S256x12, .f32⟩ : BufTy).Contents (Elt Ideal)) (a8 : (⟨S12, .f32⟩ : BufTy).Contents (Elt Ideal)) :
    refLogits T a2 a7 a8 = k3_pay1 (F := Ideal) (pool a2 T) (ccol a2) a7 (frow a8) := by
  have hk : k3_pay1 (F := Ideal) (pool a2 T) (ccol a2) a7 (frow a8)
      = addf (F := Ideal) (φ := .f32)
          (matmul (F := Ideal) dot_S64x256_S256x12_S64x12_1_0_0_1_n_n none
            (truncf .bf16 (divf (F := Ideal) (φ := .f32) (shapeCast S64x256 (pool a2 T) shapeCasts_S64x256_S64x256)
              (broadcastTo S64x256 (maximumf (F := Ideal) (φ := .f32) (shapeCast S64x1 (ccol a2) shapeCasts_S64x1_S64x1)
                (broadcast S64x1 (Scalar.ofBits (F := Ideal) .f32 0x3F800000#32))) broadcasts_S64x1_S64x256)) bitsLt_bf16_f32)
            (truncf .bf16 (a7 : FVec Ideal S256x12 .f32) bitsLt_bf16_f32) (constant S64x12 .f32 0x00000000#32))
          (broadcastTo S64x12 (shapeCast S1x12 (frow a8) shapeCasts_S1x12_S1x12) broadcasts_S1x12_S64x12) := rfl
  have hp : Host.scatterAdd (F := Ideal) Cert.ReferenceIdeal.scatter_S64x256_S50000x1_S50000x256_1_0_0_1
      (broadcastInDim S64x256 ![] Cert.ReferenceIdeal.Facts₀.bcast_S_S64x256 (constant S_ .f32 0x00000000#32)) (bcol a2) T = pool a2 T := rfl
  rw [hk, quot_eq]
  unfold refLogits
  rw [hp]
  generalize quotR (pool a2 T) a2 = Q
  funext j
  obtain ⟨g, q, rfl⟩ : ∃ (g : Fin 64) (q : Fin 12), j = ix2 g q := ⟨j 0, j 1, eq_ix2 j⟩
  rw [addf_at, addf_at]
  have hdot : Host.dotGeneral (F := Ideal) (φ₁ := .f32) (φ₂ := .f32) Cert.ReferenceIdeal.dot_S64x256_S256x12_S64x12_1_0_0_1_n_n none Q a7 (ix2 g q)
      = matmul (F := Ideal) dot_S64x256_S256x12_S64x12_1_0_0_1_n_n none (truncf .bf16 Q bitsLt_bf16_f32)
          (truncf .bf16 (a7 : FVec Ideal S256x12 .f32) bitsLt_bf16_f32) (constant S64x12 .f32 0x00000000#32) (ix2 g q) := by
    have h1 : Host.dotGeneral (F := Ideal) (φ₁ := .f32) (φ₂ := .f32) Cert.ReferenceIdeal.dot_S64x256_S256x12_S64x12_1_0_0_1_n_n none Q a7 (ix2 g q)
        = Cert.RowDot.rowDot (Cert.RowDot.rowOf Q g) a7 q := by
      simp only [Host.dotGeneral]
      exact Cert.RowDot.dotGeneral_plain_apply none _ Q a7 (ix2 g q)
    exact h1.trans (Cert.RowDot.matmul_plain_zero_apply none _ _ (ix2 g q)).symm
  have hbias : broadcastInDim S64x12 ![0, 1] Cert.ReferenceIdeal.Facts₀.bcast_S1x12_S64x12_0_1 (broadcastInDim S1x12 ![1] Cert.ReferenceIdeal.Facts₀.bcast_S12_S1x12_1 a8) (ix2 g q)
      = broadcastTo S64x12 (shapeCast S1x12 (frow a8) shapeCasts_S1x12_S1x12) broadcasts_S1x12_S64x12 (ix2 g q) := by
    rw [Cert.RowBias.spreadRowInDim_apply, shapeCast_self, Cert.RowBias.spreadRow_apply]
    show broadcastInDim S1x12 ![1] Cert.ReferenceIdeal.Facts₀.bcast_S12_S1x12_1 a8 (ix2 0 q) = frow a8 (ix2 0 q)
    rw [Cert.RowBias.rowInDim_apply]
    unfold frow
    rw [Cert.RowBias.asRow_apply]
  rw [hdot, hbias]

/-- THE FIRST RESULT: the reference's is the head kernel's first array. -/
theorem out0_eq (a0 : (⟨S50000x32, .f32⟩ : BufTy).Contents (Elt Ideal)) (a1 : (⟨S2x400000, .i32⟩ : BufTy).Contents (Elt Ideal))
    (a2 : (⟨S50000, .i32⟩ : BufTy).Contents (Elt Ideal)) (a3 : (⟨S32x256, .f32⟩ : BufTy).Contents (Elt Ideal))
    (a4 : (⟨S256, .f32⟩ : BufTy).Contents (Elt Ideal)) (a5 : (⟨S256x256, .f32⟩ : BufTy).Contents (Elt Ideal))
    (a6 : (⟨S256, .f32⟩ : BufTy).Contents (Elt Ideal)) (a7 : (⟨S256x12, .f32⟩ : BufTy).Contents (Elt Ideal))
    (a8 : (⟨S12, .f32⟩ : BufTy).Contents (Elt Ideal)) :
    Cert.ReferenceIdeal.Read.val_main_v94 (F := Ideal) a0 a1 a2 a3 a4 a5 a6 a7 a8
      = k3_pay2 (F := Ideal) (pool a2 (feat a0 a1 a3 a4 a5 a6)) (ccol a2) a7 (frow a8) := by
  unfold Cert.ReferenceIdeal.Read.val_main_v94 k3_pay2
  rw [v93_eq, v77_feat, logits_eq]

/-- THE SECOND RESULT: the reference's is the head kernel's second array. -/
theorem out1_eq (a0 : (⟨S50000x32, .f32⟩ : BufTy).Contents (Elt Ideal)) (a1 : (⟨S2x400000, .i32⟩ : BufTy).Contents (Elt Ideal))
    (a2 : (⟨S50000, .i32⟩ : BufTy).Contents (Elt Ideal)) (a3 : (⟨S32x256, .f32⟩ : BufTy).Contents (Elt Ideal))
    (a4 : (⟨S256, .f32⟩ : BufTy).Contents (Elt Ideal)) (a5 : (⟨S256x256, .f32⟩ : BufTy).Contents (Elt Ideal))
    (a6 : (⟨S256, .f32⟩ : BufTy).Contents (Elt Ideal)) (a7 : (⟨S256x12, .f32⟩ : BufTy).Contents (Elt Ideal))
    (a8 : (⟨S12, .f32⟩ : BufTy).Contents (Elt Ideal)) :
    Cert.ReferenceIdeal.Read.val_main_v97 (F := Ideal) a0 a1 a2 a3 a4 a5 a6 a7 a8
      = k3_pay3 (F := Ideal) (pool a2 (feat a0 a1 a3 a4 a5 a6)) (ccol a2) a7 (frow a8) := by
  have h : Cert.ReferenceIdeal.Read.val_main_v97 (F := Ideal) a0 a1 a2 a3 a4 a5 a6 a7 a8
      = Host.exp (F := Ideal) (φ := .f32) (minimumf (F := Ideal) (φ := .f32) (Cert.ReferenceIdeal.Read.val_main_call2_v4 (F := Ideal))
          (maximumf (F := Ideal) (φ := .f32) (Cert.ReferenceIdeal.Read.val_main_call2_v1 (F := Ideal))
            (extractStridedSlice S64x6 ![0, 6] (Cert.ReferenceIdeal.Read.val_main_v93 (F := Ideal) a0 a1 a2 a3 a4 a5 a6 a7 a8) Cert.ReferenceIdeal.Facts₀.slices_S64x12_S64x6_0_6))) := rfl
  rw [h, v93_eq, v77_feat, logits_eq]
  rfl

end Cert.Head

end
-- ==== Proof.lean ====
/-
  A two-layer graph convolution with mean pooling and a linear head, as four kernels among host gathers and
  scatters, against its plain reference.

  Each layer of the reference weights the gathered row of edge e by dis(src e) · dis(dst e) before accumulating
  at dst e. The kernels scale every row by dis before the gather and every accumulated row by dis after the
  scatter: the same function, because dis(dst e) is one nonnegative real number for all edges landing on a
  node (its degree counts its self loop, so it is at least 1) and a nonnegative real distributes over a sum of
  extended reals. The two matrix products, the bias and clamp, the pooled means and the head are the same
  arithmetic in both programs, spelt for the vector unit in one and for the host in the other; a change of
  float format is the identity at the ideal instance.

  The kernel program's run leaves every buffer at the boundary fold's last contents (KRun); each boundary
  content is identified with a stage of the network (Region0 … Region3, KValue); the reference's staged value
  is identified with the same stages (Bridge, Head) by the layer identity (Gcn) and the facts about the edge
  lists (Edges).
-/
import proofs.«180153_j7301444403652_2_alg».proof.Defs
import proofs.«180153_j7301444403652_2_alg».proof.Proof.Gen.Kernel
import proofs.«180153_j7301444403652_2_alg».proof.Proof.Gen.Kernel.Skeleton
import proofs.«180153_j7301444403652_2_alg».proof.Proof.Gen.Kernel.Launch
import proofs.«180153_j7301444403652_2_alg».proof.Proof.Gen.Kernel.Points
import proofs.«180153_j7301444403652_2_alg».proof.Proof.Gen.Kernel.Frame
import proofs.«180153_j7301444403652_2_alg».proof.Proof.Gen.KernelIdeal
import proofs.«180153_j7301444403652_2_alg».proof.Proof.Gen.KernelIdeal.Skeleton
import proofs.«180153_j7301444403652_2_alg».proof.Proof.Gen.KernelIdeal.Launch
import proofs.«180153_j7301444403652_2_alg».proof.Proof.Gen.KernelIdeal.Points
import proofs.«180153_j7301444403652_2_alg».proof.Proof.Gen.KernelIdeal.Frame
import proofs.«180153_j7301444403652_2_alg».proof.Proof.Gen.ReferenceIdeal
import proofs.«180153_j7301444403652_2_alg».proof.Proof.Gen.Pre_finite_inputs
import proofs.«180153_j7301444403652_2_alg».proof.Proof.Gen.ReferenceIdeal.Run
import proofs.«180153_j7301444403652_2_alg».proof.Proof.Gen.ReferenceIdeal.Read
import proofs.«180153_j7301444403652_2_alg».proof.Proof.KRun
import proofs.«180153_j7301444403652_2_alg».proof.Proof.KValue
import proofs.«180153_j7301444403652_2_alg».proof.Proof.Head
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel program's run with both results at their stage of the network. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v47_0) = Cert.KernelIdeal.KValue.out0 m c
        ∧ r.2.mem ((c.tc : Thread Cert.KernelIdeal.nD Cert.KernelIdeal.τ).loc Cert.KernelIdeal.main_v47_1) = Cert.KernelIdeal.KValue.out1 m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono (fun r h c =>
    ⟨(Cert.KernelIdeal.KRun.ends_at m ρ Cert.KernelIdeal.main_v47_0 (by decide) c r.2 (h c)).trans (Cert.KernelIdeal.KValue.W8_out0 m ρ c),
     (Cert.KernelIdeal.KRun.ends_at m ρ Cert.KernelIdeal.main_v47_1 (by decide) c r.2 (h c)).trans (Cert.KernelIdeal.KValue.W8_out1 m ρ c),
     (Cert.KernelIdeal.KRun.ends_at m ρ Cert.KernelIdeal.main_arg0 (by decide) c r.2 (h c)).trans (Cert.KernelIdeal.Gen.W8_main_arg0 m ρ c),
     (Cert.KernelIdeal.KRun.ends_at m ρ Cert.KernelIdeal.main_arg1 (by decide) c r.2 (h c)).trans (Cert.KernelIdeal.Gen.W8_main_arg1 m ρ c),
     (Cert.KernelIdeal.KRun.ends_at m ρ Cert.KernelIdeal.main_arg2 (by decide) c r.2 (h c)).trans (Cert.KernelIdeal.Gen.W8_main_arg2 m ρ c),
     (Cert.KernelIdeal.KRun.ends_at m ρ Cert.KernelIdeal.main_arg3 (by decide) c r.2 (h c)).trans (Cert.KernelIdeal.Gen.W8_main_arg3 m ρ c),
     (Cert.KernelIdeal.KRun.ends_at m ρ Cert.KernelIdeal.main_arg4 (by decide) c r.2 (h c)).trans (Cert.KernelIdeal.Gen.W8_main_arg4 m ρ c),
     (Cert.KernelIdeal.KRun.ends_at m ρ Cert.KernelIdeal.main_arg5 (by decide) c r.2 (h c)).trans (Cert.KernelIdeal.Gen.W8_main_arg5 m ρ c),
     (Cert.KernelIdeal.KRun.ends_at m ρ Cert.KernelIdeal.main_arg6 (by decide) c r.2 (h c)).trans (Cert.KernelIdeal.Gen.W8_main_arg6 m ρ c),
     (Cert.KernelIdeal.KRun.ends_at m ρ Cert.KernelIdeal.main_arg7 (by decide) c r.2 (h c)).trans (Cert.KernelIdeal.Gen.W8_main_arg7 m ρ c),
     (Cert.KernelIdeal.KRun.ends_at m ρ Cert.KernelIdeal.main_arg8 (by decide) c r.2 (h c)).trans (Cert.KernelIdeal.Gen.W8_main_arg8 m ρ c)⟩)
    (Cert.KernelIdeal.KRun.run_all m ρ)

/-- At the ideal instance the two programs, run from memories that agree on the arguments, end with the same two
    results: the kernels' stages of the network, which the reference's staged value equals. -/
theorem algebraic : Cert.algebraic_KernelIdeal_ReferenceIdeal := by
  intro m ρ m' ρ' _ hagree
  refine ⟨fun c => Cert.KernelIdeal.KValue.out0 m c, fun c => Cert.KernelIdeal.KValue.out1 m c, kernel_run m ρ, ?_⟩
  refine (θ_run Cert.ReferenceIdeal.defs _ _).mono (fun r h c => ?_) (Cert.ReferenceIdeal.Value.run (F := Ideal) m' ρ')
  obtain ⟨h0, h1, hargs⟩ := h c
  obtain ⟨e0, e1, e2, e3, e4, e5, e6, e7, e8⟩ := hagree c
  refine ⟨h0.trans ?_, h1.trans ?_, hargs⟩
  · rw [Cert.ReferenceIdeal.Read.val_main_v94_eq, e0, e1, e2, e3, e4, e5, e6, e7, e8]
    exact Cert.Head.out0_eq _ _ _ _ _ _ _ _ _
  · rw [Cert.ReferenceIdeal.Read.val_main_v97_eq, e0, e1, e2, e3, e4, e5, e6, e7, e8]
    exact Cert.Head.out1_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
